-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x16 : Shape := ⟨2, ![10000, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S32x16 .f32) (main_arg5 : FVec F S10000x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S10000x16 .f32 := Host.absf main_arg5
  let main_cst_8 : FVec F S_ .f32 := constant S_ .f32 0x7F800000#32
  let main_v25 : FVec F S10000x16 .f32 := broadcastInDim S10000x16 ![] bcast_S_S10000x16 main_cst_8
  let main_v26 : IVec S10000x16 1 := cmpf .olt main_v24 main_v25
  let main_c_9 : IVec S_ 1 := constantI S_ 1 1#1
  let main_v27 : IVec S_ 1 := (fun x v => Host.reduce IntOp.andi x v reducesTo_S10000x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) (main_arg5 : FVec F S10000x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x16 : Shape := ⟨2, ![10000, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩

abbrev nBuf : Space → Nat
  | .hbm => 11
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x16, .f32⟩
  | .hbm, ⟨6, _⟩ => ⟨S32x32, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S32x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S400x16, .f32⟩
  | .local _ .vmem, ⟨18, _⟩ => ⟨S10000x16, .f32⟩
  | .local _ .vmem, ⟨19, _⟩ => ⟨S400x10000, .f32⟩
  | .local _ .vmem, ⟨20, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x16 : Shape := ⟨2, ![10000, 16]⟩
abbrev S10000x32 : Shape := ⟨2, ![10000, 32]⟩
abbrev S_ : Shape := ⟨0, ![]⟩
abbrev S16x10000 : Shape := ⟨2, ![16, 10000]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x16, .f32⟩
  | .hbm, ⟨6, _⟩ => ⟨S10000x32, .f32⟩
  | .hbm, ⟨7, _⟩ => ⟨S10000x32, .f32⟩
  | .hbm, ⟨8, _⟩ => ⟨S_, .f32⟩
  | .hbm, ⟨9, _⟩ => ⟨S10000x32, .f32⟩
  | .hbm, ⟨10, _⟩ => ⟨S10000x32, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.KernelBody0.lean ====
/-
  The first kernel region: the product of the feature matrix with the first weight matrix, in one step of one point.
  Its body loads the two operands whole, and stores their product over the whole output buffer; so after the body the
  output's staging buffer holds the stored product of the two operand blocks, whatever it held before.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S10000x128 := Rect.unit (s := S10000x128) ![0, 0] S10000x128.size inb_S10000x128_S10000x128_0_0
abbrev r0_b : Rect S128x32 := Rect.unit (s := S128x32) ![0, 0] S128x32.size inb_S128x32_S128x32_0_0
abbrev r0_o : Rect S10000x32 := Rect.unit (s := S10000x32) ![0, 0] S10000x32.size inb_S10000x32_S10000x32_0_0

/-- The output's staging buffer after the body: its one store, of the product of the two loaded operands. -/
def out0_2 (x0 : Vec F S10000x128 .f32) (x1 : Vec F S128x32 .f32) : Vec F S10000x32 .f32 :=
  View.canon [⟨r0_o, k0_pay1 (View.ld x0 r0_a) (View.ld x1 r0_b)⟩]

/-- The one store covers the buffer. -/
theorem cover0_2 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
/-- The body on whole staging memrefs, the operands' at contents `x0`, `x1` and the output's at anything, runs to the
    continuation holding the operands' as they were and the output's at `out0_2` of them. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_kernel arg0 harg0 arg1 harg1 arg2 harg2) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each operand's buffer at its
    block and the output's at `out0_2` of the operand blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBody1.lean ====
/-
  The second kernel region, over 25 points: point t takes rows 400·t … 400·t + 399 of the adjacency matrix, the whole first-layer
  product and the whole 32-column weight matrix, and stores into its 400 output rows the product of the rectified
  (adjacency rows × first-layer product) with the weights. The body loads its three operands whole and stores the stored value
  over the whole output buffer; so after the body the output's staging buffer holds that value of the three operand blocks.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_o : Rect S400x32 := Rect.unit (s := S400x32) ![0, 0] S400x32.size inb_S400x32_S400x32_0_0

/-- The output's staging buffer after the body: its one store, of the stored value of the loaded operands. -/
def out1_3 (x0 : Vec F S400x10000 .f32) (x1 : Vec F S10000x32 .f32) (x2 : Vec F S32x32 .f32) : Vec F S400x32 .f32 :=
  View.canon [⟨r1_o, k1_pay1 (View.ld x0 r1_0) (View.ld x1 r1_1) (View.ld x2 r1_2)⟩]

/-- The one store covers the buffer. -/
theorem cover1_3 (p0 : Vec F S400x32 .f32) (y : S400x32.Idx) :
    ∃ pc ∈ ([⟨r1_o, p0⟩] : List (View.Piece (Elt F) S400x32 .f32)), y ∈ pc.1.set :=
  View.cover_of_tiled [⟨r1_o, p0⟩] S400x32.size (by rfl) y

set_option maxHeartbeats 1000000 in
/-- The body on whole staging memrefs, the operands' at given contents and the output's at anything, runs to the
    continuation holding the operands' as they were and the output's at `out1_3` of them. -/
theorem sound_kernel1 (c : Dev nD) (E : Set ℕ) (i : grid1.Coords) (arg0 : Memref sig .tc .vmem S400x10000 .f32) (harg0 : arg0.IsWhole) (arg1 : Memref sig .tc .vmem S10000x32 .f32) (harg1 : arg1.IsWhole) (arg2 : Memref sig .tc .vmem S32x32 .f32) (harg2 : arg2.IsWhole) (arg3 : Memref sig .tc .vmem S400x32 .f32) (harg3 : arg3.IsWhole)
    (x0 : Vec F S400x10000 .f32) (x1 : Vec F S10000x32 .f32) (x2 : Vec F S32x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__hw_kernel i arg0 harg0 arg1 harg1 arg2 harg2 arg3 harg3) K := by
  simp only [cc1__hw_kernel_eq_skeleton]; unfold cc1__hw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body each operand's buffer at its
    block and the output's at `out1_3` of the operand blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelBody2.lean ====
/-
  The third kernel region, over 25 points: point t takes rows 400·t … 400·t + 399 of the adjacency matrix and of the noise, and the
  whole 32-column second-layer operand, and stores into its 400 output rows the left half of (adjacency rows × operand) plus the noise
  times the exponential of the right half. The body loads its three operands whole and stores the stored value over the whole
  output buffer; so after the body the output's staging buffer holds that value of the three operand blocks.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x16 := Rect.unit (s := S400x16) ![0, 0] S400x16.size inb_S400x16_S400x16_0_0
abbrev r2_o : Rect S400x16 := Rect.unit (s := S400x16) ![0, 0] S400x16.size inb_S400x16_S400x16_0_0

/-- The output's staging buffer after the body: its one store, of the stored value of the loaded operands. -/
def out2_3 (x0 : Vec F S400x10000 .f32) (x1 : Vec F S10000x32 .f32) (x2 : Vec F S400x16 .f32) : Vec F S400x16 .f32 :=
  View.canon [⟨r2_o, k2_pay1 (View.ld x0 r2_0) (View.ld x1 r2_1) (View.ld x2 r2_2)⟩]

/-- The one store covers the buffer. -/
theorem cover2_3 (p0 : Vec F S400x16 .f32) (y : S400x16.Idx) :
    ∃ pc ∈ ([⟨r2_o, p0⟩] : List (View.Piece (Elt F) S400x16 .f32)), y ∈ pc.1.set :=
  View.cover_of_tiled [⟨r2_o, p0⟩] S400x16.size (by rfl) y

set_option maxHeartbeats 1000000 in
/-- The body on whole staging memrefs, the operands' at given contents and the output's at anything, runs to the
    continuation holding the operands' as they were and the output's at `out2_3` of them. -/
theorem sound_kernel2 (c : Dev nD) (E : Set ℕ) (i : grid2.Coords) (arg0 : Memref sig .tc .vmem S400x10000 .f32) (harg0 : arg0.IsWhole) (arg1 : Memref sig .tc .vmem S10000x32 .f32) (harg1 : arg1.IsWhole) (arg2 : Memref sig .tc .vmem S400x16 .f32) (harg2 : arg2.IsWhole) (arg3 : Memref sig .tc .vmem S400x16 .f32) (harg3 : arg3.IsWhole)
    (x0 : Vec F S400x10000 .f32) (x1 : Vec F S10000x32 .f32) (x2 : Vec F S400x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__z_kernel i arg0 harg0 arg1 harg1 arg2 harg2 arg3 harg3) K := by
  simp only [cc2__z_kernel_eq_skeleton]; unfold cc2__z_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body each operand's buffer at its
    block and the output's at `out2_3` of the operand blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelBody3.lean ====
/-
  The fourth kernel region, over 25 points: point t takes rows 400·t … 400·t + 399 of the latent matrix and the whole latent matrix,
  and stores into its 400 output rows the products of those rows with every row. Both operand windows read ONE array, the latent
  matrix, so the region holds it as two half shares, one per window. The body loads its two operands whole and stores the
  stored value over the whole output buffer; so after the body the output's staging buffer holds that value of the two operand blocks.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_o : Rect S400x10000 := Rect.unit (s := S400x10000) ![0, 0] S400x10000.size inb_S400x10000_S400x10000_0_0

/-- The output's staging buffer after the body: its one store, of the stored value of the loaded operands. -/
def out3_2 (x0 : Vec F S400x16 .f32) (x1 : Vec F S10000x16 .f32) : Vec F S400x10000 .f32 :=
  View.canon [⟨r3_o, k3_pay1 (View.ld x0 r3_0) (View.ld x1 r3_1)⟩]

/-- The one store covers the buffer. -/
theorem cover3_2 (p0 : Vec F S400x10000 .f32) (y : S400x10000.Idx) :
    ∃ pc ∈ ([⟨r3_o, p0⟩] : List (View.Piece (Elt F) S400x10000 .f32)), y ∈ pc.1.set :=
  View.cover_of_tiled [⟨r3_o, p0⟩] S400x10000.size (by rfl) y

set_option maxHeartbeats 1000000 in
/-- The body on whole staging memrefs, the operands' at given contents and the output's at anything, runs to the
    continuation holding the operands' as they were and the output's at `out3_2` of them. -/
theorem sound_kernel3 (c : Dev nD) (E : Set ℕ) (i : grid3.Coords) (arg0 : Memref sig .tc .vmem S400x16 .f32) (harg0 : arg0.IsWhole) (arg1 : Memref sig .tc .vmem S10000x16 .f32) (harg1 : arg1.IsWhole) (arg2 : Memref sig .tc .vmem S400x10000 .f32) (harg2 : arg2.IsWhole)
    (x0 : Vec F S400x16 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decode_kernel i arg0 harg0 arg1 harg1 arg2 harg2) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the region on core `c`: the arrays as the region finds them; after the body each operand's buffer at its
    block and the output's at `out3_2` of the operand blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelShare3.lean ====
/-
  The fourth region reads the latent matrix through two windows. At its entry the matrix's buffer, held whole, is split into its two
  half shares, one per window, beside the result's buffer held whole; at its exit both windows still hold the matrix as it was, and
  the two halves are joined back into the whole. Every other unscoped buffer of the core stays outside the region.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import proofs.«104989_g64579128262698_cont_9to1_m_970_2_alg».proof.Proof.KernelBody3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's three windows: the latent matrix's and the result's. -/
theorem arrImage3 : Finset.univ.image (Pipeline.arrRef spec3) = ({main_v3, main_v4} : Finset (Ref sig .tc)) := by decide

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The region's arrays, window by window: the latent matrix's buffer at the two half shares, the result's at the full share. -/
theorem arrays3_eq (c : Dev nD) (Fa : (w : Fin cfg3.W) → Buf (Elt F) ((cfg3.win w).arr.view.loc (c : Thread nD τ))) :
    ((dat3 V c).arrays Fa : sProp 𝕄)
      = iprop((((c : Thread nD τ).loc main_v3) ↦{fullShare.left} Fa 0) ∗ (((c : Thread nD τ).loc main_v3) ↦{fullShare.right} Fa 1)
          ∗ (((c : Thread nD τ).loc main_v4) ↦{fullShare} Fa 2)) := by
  unfold Dat.arrays
  rw [bigSep_W3, (arr_whole3 0).set_eq_univ, (arr_whole3 2).set_eq_univ, share3_0, share3_1, share3_2]

/-- The two distinct buffers behind the windows, each whole at a valuation's contents. -/
theorem arrBufs3_eq (c : Dev nD) (V' : (b : Ref sig .tc) → Buf (Elt F) ((c : Thread nD τ).loc b)) :
    (Pipeline.arrBufs (Ix := Unit) (Name := ℕ) (U := UR sig nD τ) (Lvl := ℕ) (cfgs 3).spec c V' : sProp 𝕄)
      = iprop((((c : Thread nD τ).loc main_v3) ↦{fullShare} V' main_v3) ∗ (((c : Thread nD τ).loc main_v4) ↦{fullShare} V' main_v4)) := by
  unfold Pipeline.arrBufs
  exact bigSep_eq_bigSepL_of_eq [main_v3, main_v4] (by decide) (by decide) _

/-- Entry: the core's unscoped buffers are the region's arrays at the entry contents, the latent matrix halved, and the rest. -/
theorem split3 (c : Dev nD) :
    (unscopedBufs (Ix := Unit) (Name := ℕ) (U := UR sig nD τ) (Lvl := ℕ) c (V c) : sProp 𝕄)
      ⊢ iprop((dat3 V c).arrays (dat3 V c).A ∗ Pipeline.unscopedRest (Ix := Unit) (Name := ℕ) (U := UR sig nD τ) (Lvl := ℕ) spec3 c (V c)) := by
  rw [Pipeline.unscopedBufs_split₀ cfgs 3 winFacts₀3.arr_unscoped c (V c), arrBufs3_eq, arrays3_eq]
  iintro ⟨⟨H3, H4⟩, Hrest⟩
  ihave H3' := (pointsTo_share (PosShare.mem_left_op_right fullShare)).1 $$ H3
  icases H3' with ⟨Hl, Hr⟩
  isplitr [Hrest]
  · isplitl [Hl]; · iexact Hl
    isplitl [Hr]; · iexact Hr
    iexact H4
  iexact Hrest

/-- Exit: the region's arrays at contents that are a valuation's at the two buffers, and the rest as entered, are the core's
    unscoped buffers at that valuation when it agrees with the entry contents off the two buffers. -/
theorem join3 (c : Dev nD) (V' : (b : Ref sig .tc) → Buf (Elt F) ((c : Thread nD τ).loc b))
    (Fa : (w : Fin cfg3.W) → Buf (Elt F) ((cfg3.win w).arr.view.loc (c : Thread nD τ)))
    (h0 : Fa 0 = V' main_v3) (h1 : Fa 1 = V' main_v3) (h2 : Fa 2 = V' main_v4)
    (hrest : ∀ b, b ∉ Finset.univ.image (Pipeline.arrRef spec3) → V' b = V c b) :
    iprop((dat3 V c).arrays Fa ∗ Pipeline.unscopedRest (Ix := Unit) (Name := ℕ) (U := UR sig nD τ) (Lvl := ℕ) spec3 c (V c))
      ⊢ (unscopedBufs (Ix := Unit) (Name := ℕ) (U := UR sig nD τ) (Lvl := ℕ) c V' : sProp 𝕄) := by
  rw [Pipeline.unscopedBufs_split₀ cfgs 3 winFacts₀3.arr_unscoped c V', arrBufs3_eq, arrays3_eq, h0, h1, h2]
  have hr : (Pipeline.unscopedRest (Ix := Unit) (Name := ℕ) (U := UR sig nD τ) (Lvl := ℕ) spec3 c (V c) : sProp 𝕄)
      = Pipeline.unscopedRest (Ix := Unit) (Name := ℕ) (U := UR sig nD τ) (Lvl := ℕ) spec3 c V' := by
    unfold Pipeline.unscopedRest
    exact bigSep_congr fun b hb => by rw [hrest b (Finset.mem_sdiff.mp hb).2]
  rw [hr]
  iintro ⟨⟨Hl, Hr, H4⟩, Hrest⟩
  isplitr [Hrest]
  · isplitr [H4]
    · iapply (pointsTo_share (PosShare.mem_left_op_right fullShare)).2
      isplitl [Hl] <;> iassumption
    iexact H4
  iexact Hrest

end Cert.Kernel.Hand

end
-- ==== Proof.KernelRun.lean ====
/-
  The whole program's run: a host step that sets the two heads' weight matrices side by side, then the four kernel regions in order.
  Between two steps every unscoped buffer of a core is held at known contents: the launch memory, then what the host step writes,
  then after each region its arrays at what the region's write-backs leave (the operands as entered, the output at its
  blocks folded in point order) and every other buffer as before. Every weakly fair execution terminates, and at the end each
  unscoped buffer holds the last of these contents: the arguments what they held at launch, the result what the fourth region leaves.
-/
import proofs.«104989_g64579128262698_cont_9to1_m_970_2_alg».proof.Proof.Gen.Kernel.Launch
import proofs.«104989_g64579128262698_cont_9to1_m_970_2_alg».proof.Proof.Gen.Kernel.Skeleton
import proofs.«104989_g64579128262698_cont_9to1_m_970_2_alg».proof.Proof.Gen.Kernel.Points
import proofs.«104989_g64579128262698_cont_9to1_m_970_2_alg».proof.Proof.KernelBody0
import proofs.«104989_g64579128262698_cont_9to1_m_970_2_alg».proof.Proof.KernelBody1
import proofs.«104989_g64579128262698_cont_9to1_m_970_2_alg».proof.Proof.KernelBody2
import proofs.«104989_g64579128262698_cont_9to1_m_970_2_alg».proof.Proof.KernelBody3
import proofs.«104989_g64579128262698_cont_9to1_m_970_2_alg».proof.Proof.KernelShare3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the steps -/

/-- Core `c`'s buffers at launch. -/
abbrev W0 : Dev nD → Valuation τ sig (Elt F) := fun c b => m ((c : Dev nD), b)
/-- After the host step (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves (the inputs as entered, the output's write-backs folded), every other
    buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, the output's write-backs folded), every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, the output's write-backs folded), every other
    buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: the result's buffer at what the pipeline leaves, every other buffer as entered (both operand windows read
    the latent matrix, which no write-back touches). -/
def W5 (c : Dev nD) : Valuation τ sig (Elt F) :=
  Function.update (W4 m c) (Proc.devRef .tc main_v4) ((dat3 (V4 m) c).arrAt 2 cfg3.N)
theorem W5_out (c : Dev nD) : W5 m c (Proc.devRef .tc main_v4) = (dat3 (V4 m) c).arrAt 2 cfg3.N := by
  unfold W5; exact Function.update_self ..
theorem W5_of_ne (c : Dev nD) (b : Ref sig .tc) (hb : b ≠ main_v4) :
    W5 m c (Proc.devRef .tc b) = W4 m c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m c b

/-! ## The arguments end as launched: the host step writes none, and a region reads one through an operand window or not at all -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := (W4_arr m c 2).trans (((dat2 (V3 m) c).arrAt_in 2 rfl _).trans (A_eq2 (V3 m) c 2))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg5) := rfl

/-! ## The proof data family and the thread state -/

/-- No region has a prefetched table. -/
abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state and its debts, none. -/
abbrev R (c : Dev nD) : sProp 𝕄 := iprop((∃ r, prngReg c r) ∗ ∃ W, owes (c : Thread nD τ) (0 : CellTallies nD τ sig Unit) W)
/-- The host step as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are split out of the
    unscoped buffers at entry and put back at their final contents at the exit; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of the
    unscoped buffers at entry and put back at their final contents at the exit; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split out of the
    unscoped buffers at entry and put back at their final contents at the exit; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. The latent matrix's buffer, held whole,
    is split into its two half shares, one per operand window, and the halves are joined again at the exit, where both windows
    still hold what they were given; the result's buffer goes in whole and comes back at its final contents. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := split3 (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V4 m c))
        ⊢ (unscopedBufs (Ix := Unit) (Name := ℕ) (U := UR sig nD τ) (Lvl := ℕ) c (V5 m c) : sProp 𝕄) :=
      join3 (V4 m) c (V5 m c) ((pdats m 3 c).arrAt · cfg3.N)
        (((dat3 (V4 m) c).arrAt_in 0 rfl _).trans ((A_eq3 (V4 m) c 0).trans (W5_of_ne m c main_v3 (by decide)).symm))
        (((dat3 (V4 m) c).arrAt_in 1 rfl _).trans ((A_eq3 (V4 m) c 1).trans (W5_of_ne m c main_v3 (by decide)).symm))
        (W5_out m c).symm
        (fun b hb => W5_of_ne m c b fun e => hb (e ▸ (by decide : main_v4 ∈ Finset.univ.image (Pipeline.arrRef spec3))))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m), .region (reg1 m), .region (reg2 m), .region (reg3 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the run, read at the six arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- The run with the result named: it ends at what the fourth region's write-backs leave in its buffer. -/
theorem run_value : θ_run defs (onTc (τ := τ) (main (F := F))) ⟨m, fun _ => 0, ρ⟩ (fun r => ∀ c : Dev nD,
      r.2.mem ((c.tc : Thread nD τ).loc main_v4) = (dat3 (V4 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W5_out m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KernelIdealBody0.lean ====
/-
  The first kernel region: the product of the feature matrix with the first weight matrix, in one step of one point.
  Its body loads the two operands whole, and stores their product over the whole output buffer; so after the body the
  output's staging buffer holds the stored product of the two operand blocks, whatever it held before.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S10000x128 := Rect.unit (s := S10000x128) ![0, 0] S10000x128.size inb_S10000x128_S10000x128_0_0
abbrev r0_b : Rect S128x32 := Rect.unit (s := S128x32) ![0, 0] S128x32.size inb_S128x32_S128x32_0_0
abbrev r0_o : Rect S10000x32 := Rect.unit (s := S10000x32) ![0, 0] S10000x32.size inb_S10000x32_S10000x32_0_0

/-- The output's staging buffer after the body: its one store, of the product of the two loaded operands. -/
def out0_2 (x0 : Vec F S10000x128 .f32) (x1 : Vec F S128x32 .f32) : Vec F S10000x32 .f32 :=
  View.canon [⟨r0_o, k0_pay1 (View.ld x0 r0_a) (View.ld x1 r0_b)⟩]

/-- The one store covers the buffer. -/
theorem cover0_2 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
/-- The body on whole staging memrefs, the operands' at contents `x0`, `x1` and the output's at anything, runs to the
    continuation holding the operands' as they were and the output's at `out0_2` of them. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_kernel arg0 harg0 arg1 harg1 arg2 harg2) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each operand's buffer at its
    block and the output's at `out0_2` of the operand blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealBody1.lean ====
/-
  The second kernel region, over 25 points: point t takes rows 400·t … 400·t + 399 of the adjacency matrix, the whole first-layer
  product and the whole 32-column weight matrix, and stores into its 400 output rows the product of the rectified
  (adjacency rows × first-layer product) with the weights. The body loads its three operands whole and stores the stored value
  over the whole output buffer; so after the body the output's staging buffer holds that value of the three operand blocks.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_o : Rect S400x32 := Rect.unit (s := S400x32) ![0, 0] S400x32.size inb_S400x32_S400x32_0_0

/-- The output's staging buffer after the body: its one store, of the stored value of the loaded operands. -/
def out1_3 (x0 : Vec F S400x10000 .f32) (x1 : Vec F S10000x32 .f32) (x2 : Vec F S32x32 .f32) : Vec F S400x32 .f32 :=
  View.canon [⟨r1_o, k1_pay1 (View.ld x0 r1_0) (View.ld x1 r1_1) (View.ld x2 r1_2)⟩]

/-- The one store covers the buffer. -/
theorem cover1_3 (p0 : Vec F S400x32 .f32) (y : S400x32.Idx) :
    ∃ pc ∈ ([⟨r1_o, p0⟩] : List (View.Piece (Elt F) S400x32 .f32)), y ∈ pc.1.set :=
  View.cover_of_tiled [⟨r1_o, p0⟩] S400x32.size (by rfl) y

set_option maxHeartbeats 1000000 in
/-- The body on whole staging memrefs, the operands' at given contents and the output's at anything, runs to the
    continuation holding the operands' as they were and the output's at `out1_3` of them. -/
theorem sound_kernel1 (c : Dev nD) (E : Set ℕ) (i : grid1.Coords) (arg0 : Memref sig .tc .vmem S400x10000 .f32) (harg0 : arg0.IsWhole) (arg1 : Memref sig .tc .vmem S10000x32 .f32) (harg1 : arg1.IsWhole) (arg2 : Memref sig .tc .vmem S32x32 .f32) (harg2 : arg2.IsWhole) (arg3 : Memref sig .tc .vmem S400x32 .f32) (harg3 : arg3.IsWhole)
    (x0 : Vec F S400x10000 .f32) (x1 : Vec F S10000x32 .f32) (x2 : Vec F S32x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__hw_kernel i arg0 harg0 arg1 harg1 arg2 harg2 arg3 harg3) K := by
  simp only [cc1__hw_kernel_eq_skeleton]; unfold cc1__hw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body each operand's buffer at its
    block and the output's at `out1_3` of the operand blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealBody2.lean ====
/-
  The third kernel region, over 25 points: point t takes rows 400·t … 400·t + 399 of the adjacency matrix and of the noise, and the
  whole 32-column second-layer operand, and stores into its 400 output rows the left half of (adjacency rows × operand) plus the noise
  times the exponential of the right half. The body loads its three operands whole and stores the stored value over the whole
  output buffer; so after the body the output's staging buffer holds that value of the three operand blocks.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x16 := Rect.unit (s := S400x16) ![0, 0] S400x16.size inb_S400x16_S400x16_0_0
abbrev r2_o : Rect S400x16 := Rect.unit (s := S400x16) ![0, 0] S400x16.size inb_S400x16_S400x16_0_0

/-- The output's staging buffer after the body: its one store, of the stored value of the loaded operands. -/
def out2_3 (x0 : Vec F S400x10000 .f32) (x1 : Vec F S10000x32 .f32) (x2 : Vec F S400x16 .f32) : Vec F S400x16 .f32 :=
  View.canon [⟨r2_o, k2_pay1 (View.ld x0 r2_0) (View.ld x1 r2_1) (View.ld x2 r2_2)⟩]

/-- The one store covers the buffer. -/
theorem cover2_3 (p0 : Vec F S400x16 .f32) (y : S400x16.Idx) :
    ∃ pc ∈ ([⟨r2_o, p0⟩] : List (View.Piece (Elt F) S400x16 .f32)), y ∈ pc.1.set :=
  View.cover_of_tiled [⟨r2_o, p0⟩] S400x16.size (by rfl) y

set_option maxHeartbeats 1000000 in
/-- The body on whole staging memrefs, the operands' at given contents and the output's at anything, runs to the
    continuation holding the operands' as they were and the output's at `out2_3` of them. -/
theorem sound_kernel2 (c : Dev nD) (E : Set ℕ) (i : grid2.Coords) (arg0 : Memref sig .tc .vmem S400x10000 .f32) (harg0 : arg0.IsWhole) (arg1 : Memref sig .tc .vmem S10000x32 .f32) (harg1 : arg1.IsWhole) (arg2 : Memref sig .tc .vmem S400x16 .f32) (harg2 : arg2.IsWhole) (arg3 : Memref sig .tc .vmem S400x16 .f32) (harg3 : arg3.IsWhole)
    (x0 : Vec F S400x10000 .f32) (x1 : Vec F S10000x32 .f32) (x2 : Vec F S400x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__z_kernel i arg0 harg0 arg1 harg1 arg2 harg2 arg3 harg3) K := by
  simp only [cc2__z_kernel_eq_skeleton]; unfold cc2__z_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body each operand's buffer at its
    block and the output's at `out2_3` of the operand blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealBody3.lean ====
/-
  The fourth kernel region, over 25 points: point t takes rows 400·t … 400·t + 399 of the latent matrix and the whole latent matrix,
  and stores into its 400 output rows the products of those rows with every row. Both operand windows read ONE array, the latent
  matrix, so the region holds it as two half shares, one per window. The body loads its two operands whole and stores the
  stored value over the whole output buffer; so after the body the output's staging buffer holds that value of the two operand blocks.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_o : Rect S400x10000 := Rect.unit (s := S400x10000) ![0, 0] S400x10000.size inb_S400x10000_S400x10000_0_0

/-- The output's staging buffer after the body: its one store, of the stored value of the loaded operands. -/
def out3_2 (x0 : Vec F S400x16 .f32) (x1 : Vec F S10000x16 .f32) : Vec F S400x10000 .f32 :=
  View.canon [⟨r3_o, k3_pay1 (View.ld x0 r3_0) (View.ld x1 r3_1)⟩]

/-- The one store covers the buffer. -/
theorem cover3_2 (p0 : Vec F S400x10000 .f32) (y : S400x10000.Idx) :
    ∃ pc ∈ ([⟨r3_o, p0⟩] : List (View.Piece (Elt F) S400x10000 .f32)), y ∈ pc.1.set :=
  View.cover_of_tiled [⟨r3_o, p0⟩] S400x10000.size (by rfl) y

set_option maxHeartbeats 1000000 in
/-- The body on whole staging memrefs, the operands' at given contents and the output's at anything, runs to the
    continuation holding the operands' as they were and the output's at `out3_2` of them. -/
theorem sound_kernel3 (c : Dev nD) (E : Set ℕ) (i : grid3.Coords) (arg0 : Memref sig .tc .vmem S400x16 .f32) (harg0 : arg0.IsWhole) (arg1 : Memref sig .tc .vmem S10000x16 .f32) (harg1 : arg1.IsWhole) (arg2 : Memref sig .tc .vmem S400x10000 .f32) (harg2 : arg2.IsWhole)
    (x0 : Vec F S400x16 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decode_kernel i arg0 harg0 arg1 harg1 arg2 harg2) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the region on core `c`: the arrays as the region finds them; after the body each operand's buffer at its
    block and the output's at `out3_2` of the operand blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealShare3.lean ====
/-
  The fourth region reads the latent matrix through two windows. At its entry the matrix's buffer, held whole, is split into its two
  half shares, one per window, beside the result's buffer held whole; at its exit both windows still hold the matrix as it was, and
  the two halves are joined back into the whole. Every other unscoped buffer of the core stays outside the region.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import proofs.«104989_g64579128262698_cont_9to1_m_970_2_alg».proof.Proof.KernelIdealBody3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's three windows: the latent matrix's and the result's. -/
theorem arrImage3 : Finset.univ.image (Pipeline.arrRef spec3) = ({main_v3, main_v4} : Finset (Ref sig .tc)) := by decide

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The region's arrays, window by window: the latent matrix's buffer at the two half shares, the result's at the full share. -/
theorem arrays3_eq (c : Dev nD) (Fa : (w : Fin cfg3.W) → Buf (Elt F) ((cfg3.win w).arr.view.loc (c : Thread nD τ))) :
    ((dat3 V c).arrays Fa : sProp 𝕄)
      = iprop((((c : Thread nD τ).loc main_v3) ↦{fullShare.left} Fa 0) ∗ (((c : Thread nD τ).loc main_v3) ↦{fullShare.right} Fa 1)
          ∗ (((c : Thread nD τ).loc main_v4) ↦{fullShare} Fa 2)) := by
  unfold Dat.arrays
  rw [bigSep_W3, (arr_whole3 0).set_eq_univ, (arr_whole3 2).set_eq_univ, share3_0, share3_1, share3_2]

/-- The two distinct buffers behind the windows, each whole at a valuation's contents. -/
theorem arrBufs3_eq (c : Dev nD) (V' : (b : Ref sig .tc) → Buf (Elt F) ((c : Thread nD τ).loc b)) :
    (Pipeline.arrBufs (Ix := Unit) (Name := ℕ) (U := UR sig nD τ) (Lvl := ℕ) (cfgs 3).spec c V' : sProp 𝕄)
      = iprop((((c : Thread nD τ).loc main_v3) ↦{fullShare} V' main_v3) ∗ (((c : Thread nD τ).loc main_v4) ↦{fullShare} V' main_v4)) := by
  unfold Pipeline.arrBufs
  exact bigSep_eq_bigSepL_of_eq [main_v3, main_v4] (by decide) (by decide) _

/-- Entry: the core's unscoped buffers are the region's arrays at the entry contents, the latent matrix halved, and the rest. -/
theorem split3 (c : Dev nD) :
    (unscopedBufs (Ix := Unit) (Name := ℕ) (U := UR sig nD τ) (Lvl := ℕ) c (V c) : sProp 𝕄)
      ⊢ iprop((dat3 V c).arrays (dat3 V c).A ∗ Pipeline.unscopedRest (Ix := Unit) (Name := ℕ) (U := UR sig nD τ) (Lvl := ℕ) spec3 c (V c)) := by
  rw [Pipeline.unscopedBufs_split₀ cfgs 3 winFacts₀3.arr_unscoped c (V c), arrBufs3_eq, arrays3_eq]
  iintro ⟨⟨H3, H4⟩, Hrest⟩
  ihave H3' := (pointsTo_share (PosShare.mem_left_op_right fullShare)).1 $$ H3
  icases H3' with ⟨Hl, Hr⟩
  isplitr [Hrest]
  · isplitl [Hl]; · iexact Hl
    isplitl [Hr]; · iexact Hr
    iexact H4
  iexact Hrest

/-- Exit: the region's arrays at contents that are a valuation's at the two buffers, and the rest as entered, are the core's
    unscoped buffers at that valuation when it agrees with the entry contents off the two buffers. -/
theorem join3 (c : Dev nD) (V' : (b : Ref sig .tc) → Buf (Elt F) ((c : Thread nD τ).loc b))
    (Fa : (w : Fin cfg3.W) → Buf (Elt F) ((cfg3.win w).arr.view.loc (c : Thread nD τ)))
    (h0 : Fa 0 = V' main_v3) (h1 : Fa 1 = V' main_v3) (h2 : Fa 2 = V' main_v4)
    (hrest : ∀ b, b ∉ Finset.univ.image (Pipeline.arrRef spec3) → V' b = V c b) :
    iprop((dat3 V c).arrays Fa ∗ Pipeline.unscopedRest (Ix := Unit) (Name := ℕ) (U := UR sig nD τ) (Lvl := ℕ) spec3 c (V c))
      ⊢ (unscopedBufs (Ix := Unit) (Name := ℕ) (U := UR sig nD τ) (Lvl := ℕ) c V' : sProp 𝕄) := by
  rw [Pipeline.unscopedBufs_split₀ cfgs 3 winFacts₀3.arr_unscoped c V', arrBufs3_eq, arrays3_eq, h0, h1, h2]
  have hr : (Pipeline.unscopedRest (Ix := Unit) (Name := ℕ) (U := UR sig nD τ) (Lvl := ℕ) spec3 c (V c) : sProp 𝕄)
      = Pipeline.unscopedRest (Ix := Unit) (Name := ℕ) (U := UR sig nD τ) (Lvl := ℕ) spec3 c V' := by
    unfold Pipeline.unscopedRest
    exact bigSep_congr fun b hb => by rw [hrest b (Finset.mem_sdiff.mp hb).2]
  rw [hr]
  iintro ⟨⟨Hl, Hr, H4⟩, Hrest⟩
  isplitr [Hrest]
  · isplitr [H4]
    · iapply (pointsTo_share (PosShare.mem_left_op_right fullShare)).2
      isplitl [Hl] <;> iassumption
    iexact H4
  iexact Hrest

end Cert.KernelIdeal.Hand

end
-- ==== Proof.KernelIdealRun.lean ====
/-
  The whole program's run: a host step that sets the two heads' weight matrices side by side, then the four kernel regions in order.
  Between two steps every unscoped buffer of a core is held at known contents: the launch memory, then what the host step writes,
  then after each region its arrays at what the region's write-backs leave (the operands as entered, the output at its
  blocks folded in point order) and every other buffer as before. Every weakly fair execution terminates, and at the end each
  unscoped buffer holds the last of these contents: the arguments what they held at launch, the result what the fourth region leaves.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import proofs.«104989_g64579128262698_cont_9to1_m_970_2_alg».proof.Proof.KernelIdealBody0
import proofs.«104989_g64579128262698_cont_9to1_m_970_2_alg».proof.Proof.KernelIdealBody1
import proofs.«104989_g64579128262698_cont_9to1_m_970_2_alg».proof.Proof.KernelIdealBody2
import proofs.«104989_g64579128262698_cont_9to1_m_970_2_alg».proof.Proof.KernelIdealBody3
import proofs.«104989_g64579128262698_cont_9to1_m_970_2_alg».proof.Proof.KernelIdealShare3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the steps -/

/-- Core `c`'s buffers at launch. -/
abbrev W0 : Dev nD → Valuation τ sig (Elt F) := fun c b => m ((c : Dev nD), b)
/-- After the host step (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves (the inputs as entered, the output's write-backs folded), every other
    buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, the output's write-backs folded), every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves (the inputs as entered, the output's write-backs folded), every other
    buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: the result's buffer at what the pipeline leaves, every other buffer as entered (both operand windows read
    the latent matrix, which no write-back touches). -/
def W5 (c : Dev nD) : Valuation τ sig (Elt F) :=
  Function.update (W4 m c) (Proc.devRef .tc main_v4) ((dat3 (V4 m) c).arrAt 2 cfg3.N)
theorem W5_out (c : Dev nD) : W5 m c (Proc.devRef .tc main_v4) = (dat3 (V4 m) c).arrAt 2 cfg3.N := by
  unfold W5; exact Function.update_self ..
theorem W5_of_ne (c : Dev nD) (b : Ref sig .tc) (hb : b ≠ main_v4) :
    W5 m c (Proc.devRef .tc b) = W4 m c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m c b

/-! ## The arguments end as launched: the host step writes none, and a region reads one through an operand window or not at all -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := (W4_arr m c 2).trans (((dat2 (V3 m) c).arrAt_in 2 rfl _).trans (A_eq2 (V3 m) c 2))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg5) := rfl

/-! ## The proof data family and the thread state -/

/-- No region has a prefetched table. -/
abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state and its debts, none. -/
abbrev R (c : Dev nD) : sProp 𝕄 := iprop((∃ r, prngReg c r) ∗ ∃ W, owes (c : Thread nD τ) (0 : CellTallies nD τ sig Unit) W)
/-- The host step as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are split out of the
    unscoped buffers at entry and put back at their final contents at the exit; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of the
    unscoped buffers at entry and put back at their final contents at the exit; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split out of the
    unscoped buffers at entry and put back at their final contents at the exit; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. The latent matrix's buffer, held whole,
    is split into its two half shares, one per operand window, and the halves are joined again at the exit, where both windows
    still hold what they were given; the result's buffer goes in whole and comes back at its final contents. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := split3 (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V4 m c))
        ⊢ (unscopedBufs (Ix := Unit) (Name := ℕ) (U := UR sig nD τ) (Lvl := ℕ) c (V5 m c) : sProp 𝕄) :=
      join3 (V4 m) c (V5 m c) ((pdats m 3 c).arrAt · cfg3.N)
        (((dat3 (V4 m) c).arrAt_in 0 rfl _).trans ((A_eq3 (V4 m) c 0).trans (W5_of_ne m c main_v3 (by decide)).symm))
        (((dat3 (V4 m) c).arrAt_in 1 rfl _).trans ((A_eq3 (V4 m) c 1).trans (W5_of_ne m c main_v3 (by decide)).symm))
        (W5_out m c).symm
        (fun b hb => W5_of_ne m c b fun e => hb (e ▸ (by decide : main_v4 ∈ Finset.univ.image (Pipeline.arrRef spec3))))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m), .region (reg1 m), .region (reg2 m), .region (reg3 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the run, read at the six arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- The run with the result named: it ends at what the fourth region's write-backs leave in its buffer. -/
theorem run_value : θ_run defs (onTc (τ := τ) (main (F := F))) ⟨m, fun _ => 0, ρ⟩ (fun r => ∀ c : Dev nD,
      r.2.mem ((c.tc : Thread nD τ).loc main_v4) = (dat3 (V4 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W5_out m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«104989_g64579128262698_cont_9to1_m_970_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.Spec.lean ====
/-
  The arithmetic of the graph auto-encoder's forward pass, as functions of whole matrices over the extended reals.

  With mm the dense product, the encoder's hidden layer is h = relu (mm adj (mm x W1)); the two heads mm adj (mm h W_mu)
  and mm adj (mm h W_sig) may be computed together as the left and right halves of the 32 columns of
  t = mm adj (mm h Wcat), where Wcat carries W_mu in its columns 0..15 and W_sig in its columns 16..31; the latent sample
  is z(a, q) = t(a, q) + noise(a, q) · exp (t(a, 16 + q)); and the decoder is the Gram matrix out(a, b) = ∑ k, z(a, k) · z(b, k).
-/
import proofs.«104989_g64579128262698_cont_9to1_m_970_2_alg».proof.Proof.LibDenseProduct

noncomputable section

namespace Cert.Spec

open Idealize.ShloMosaic Idealize.ShloMosaic.ValueIdx Cert.LibDenseProduct

/-- An m×n matrix of extended reals. -/
abbrev Mat (m n : Nat) : Type := FVec Ideal ⟨2, ![m, n]⟩ .f32

/-- Entrywise maximum with zero. -/
def relu {m n : Nat} (A : Mat m n) : Mat m n :=
  maximumf A (constant (F := Ideal) ⟨2, ![m, n]⟩ .f32 0x00000000#32)

theorem relu_apply {m n : Nat} (A : Mat m n) (i : (⟨2, ![m, n]⟩ : Shape).Idx) :
    relu A i = max (A i) (constant (F := Ideal) ⟨2, ![m, n]⟩ .f32 0x00000000#32 i) := rfl

/-- The latent sample from the 32-column product t and the noise: column q of the left half plus the noise times
    the exponential of column q of the right half. -/
def sample {n : Nat} (t : Mat n 32) (noise : Mat n 16) : Mat n 16 :=
  fun i => t (ix2 (i 0) ⟨(i 1).val, Nat.lt_of_lt_of_le (idx2_lt1 i) (by decide)⟩)
    + noise i * Ideal.exp (t (ix2 (i 0) ⟨16 + (i 1).val, Nat.add_lt_add_left (idx2_lt1 i) 16⟩))

theorem sample_apply {n : Nat} (t : Mat n 32) (noise : Mat n 16) (a : Fin n) (q : Fin 16) :
    sample t noise (ix2 a q)
      = t (ix2 a ⟨q.val, Nat.lt_of_lt_of_le q.isLt (by decide)⟩)
        + noise (ix2 a q) * Ideal.exp (t (ix2 a ⟨16 + q.val, Nat.add_lt_add_left q.isLt 16⟩)) := rfl

/-- The products of the rows of one 16-column matrix with the rows of another: entry (a, b) is ∑ k, A(a, k) · B(b, k). -/
def outer {m n : Nat} (A : Mat m 16) (B : Mat n 16) : Mat m n :=
  fun i => ∑ k : Fin 16, A (ix2 (i 0) k) * B (ix2 (i 1) k)

theorem outer_apply {m n : Nat} (A : Mat m 16) (B : Mat n 16) (a : Fin m) (b : Fin n) :
    outer A B (ix2 a b) = ∑ k : Fin 16, A (ix2 a k) * B (ix2 b k) := rfl

/-- The whole forward pass from the adjacency, the features, the first weight, the two heads' weights side by side, and the noise. -/
def forward (x : Mat 10000 128) (adj : Mat 10000 10000) (W1 : Mat 128 32) (Wcat : Mat 32 32) (noise : Mat 10000 16) :
    Mat 10000 10000 :=
  let z := sample (mm adj (mm (relu (mm adj (mm x W1))) Wcat)) noise
  outer z z

end Cert.Spec

end
-- ==== Proof.Payloads.lean ====
/-
  The values the four kernel bodies store, as functions of the whole blocks they load, at the ideal values; and the
  statement that a block of rows of each stage of the forward pass is that stage of the same rows.

  Each body is a product of matrices into a zero accumulator, between reshapes of a shape to itself. The first stores
  the dense product of its two blocks. The second stores the product of the entrywise maximum with zero of a dense
  product with a third block. The third cuts a 32-column dense product into its left and right 16 columns and stores
  left + noise · exp right. The fourth contracts the second axis of both its blocks: entry (a, b) is
  ∑ k, A(a, k) · B(b, k), the products of the rows of one block with the rows of the other.

  Row a of a dense product reads row a of the left factor only, the maximum with zero and the sample act entry by entry
  within a row, and row a of the rows-by-rows product reads row a of its left factor only: so each stage computed from a
  block of rows is the same rows of the stage computed from the whole array.
-/
import proofs.«104989_g64579128262698_cont_9to1_m_970_2_alg».proof.Proof.Spec
import proofs.«104989_g64579128262698_cont_9to1_m_970_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.LibDenseProduct Cert.Spec Cert.KernelIdeal Cert.KernelIdeal.Gen

/-! ## Rows of each stage -/

/-- Rows of a dense product, at coordinates: if row p of the small left factor is row P of the large one, entry (p, q) of
    the small product is entry (P, q) of the large one. -/
theorem mm_rows' {M m k n : Nat} (X : Mat M k) (W : Mat k n) (x0 : Mat m k) (p : Fin m) (P : Fin M)
    (hx : ∀ c : Fin k, x0 (ix2 p c) = X (ix2 P c)) (q : Fin n) : mm x0 W (ix2 p q) = mm X W (ix2 P q) :=
  mm_rows X W x0 (ix2 p q) (ix2 P q) hx rfl

/-- Rows of the hidden stage: the maximum with zero acts entry by entry, so the rows lemma for the product applies
    twice, inside and outside it. -/
theorem hidden_rows {M m : Nat} (adj : Mat M 10000) (xw : Mat 10000 32) (Wcat : Mat 32 32) (a0 : Mat m 10000) (p : Fin m) (P : Fin M)
    (hx : ∀ c : Fin 10000, a0 (ix2 p c) = adj (ix2 P c)) (q : Fin 32) :
    mm (relu (mm a0 xw)) Wcat (ix2 p q) = mm (relu (mm adj xw)) Wcat (ix2 P q) := by
  refine mm_rows' (relu (mm adj xw)) Wcat (relu (mm a0 xw)) p P (fun c => ?_) q
  rw [relu_apply, relu_apply, mm_rows' adj xw a0 p P hx c]
  rfl

/-- Rows of the sample: entry (p, q) reads the product at (p, q) and at (p, 16 + q), and the noise at (p, q). -/
theorem sample_rows {M m : Nat} (adj : Mat M 10000) (hw : Mat 10000 32) (noise : Mat M 16) (a0 : Mat m 10000) (n0 : Mat m 16) (p : Fin m) (P : Fin M)
    (hx : ∀ c : Fin 10000, a0 (ix2 p c) = adj (ix2 P c)) (hn : ∀ q : Fin 16, n0 (ix2 p q) = noise (ix2 P q)) (q : Fin 16) :
    sample (mm a0 hw) n0 (ix2 p q) = sample (mm adj hw) noise (ix2 P q) := by
  rw [sample_apply, sample_apply, hn q, mm_rows' adj hw a0 p P hx, mm_rows' adj hw a0 p P hx]

/-- Rows of the rows-by-rows product: entry (p, b) reads row p of the left factor only. -/
theorem outer_rows {M m n : Nat} (z : Mat M 16) (B : Mat n 16) (z0 : Mat m 16) (p : Fin m) (P : Fin M)
    (hz : ∀ k : Fin 16, z0 (ix2 p k) = z (ix2 P k)) (b : Fin n) :
    outer z0 B (ix2 p b) = outer z B (ix2 P b) := by
  rw [outer_apply, outer_apply]
  exact Finset.sum_congr rfl fun k _ => by rw [hz k]

/-! ## The stored values -/

/-- The first body stores the dense product of its two blocks. -/
theorem pay0_eq (v0 : Vec Ideal S10000x128 .f32) (v1 : Vec Ideal S128x32 .f32) :
    k0_pay1 (F := Ideal) v0 v1 = mm (φ₁ := .f32) (φ₂ := .f32) v0 v1 := by
  unfold k0_pay1
  exact matmul_plain_zero_eq none v0 v1

/-- The second body stores the product of the maximum with zero of a dense product with its third block. -/
theorem pay1_eq (v0 : Vec Ideal S400x10000 .f32) (v1 : Vec Ideal S10000x32 .f32) (v6 : Vec Ideal S32x32 .f32) :
    k1_pay1 (F := Ideal) v0 v1 v6 = mm (φ₂ := .f32) (relu (mm (φ₁ := .f32) (φ₂ := .f32) v0 v1)) v6 := by
  unfold k1_pay1
  rw [shapeCast_self, shapeCast_self]
  refine (matmul_plain_zero_eq (φ₁ := .f32) (φ₂ := .f32) none _ v6).trans ?_
  refine congrArg (fun X : Mat 400 32 => mm (φ₂ := .f32) X v6) ?_
  rw [show matmul dot_S400x10000_S10000x32_S400x32_1_0_0_1_n_n none v0 v1 (constant (F := Ideal) S400x32 .f32 0x00000000#32)
      = mm (φ₁ := .f32) (φ₂ := .f32) v0 v1 from matmul_plain_zero_eq none v0 v1]
  rfl

/-- The third body stores the sample: the left 16 columns of the dense product plus the noise times the exponential of
    the right 16 columns. -/
theorem pay2_eq (v0 : Vec Ideal S400x10000 .f32) (v1 : Vec Ideal S10000x32 .f32) (v6 : Vec Ideal S400x16 .f32) :
    k2_pay1 (F := Ideal) v0 v1 v6 = sample (mm (φ₁ := .f32) (φ₂ := .f32) v0 v1) v6 := by
  unfold k2_pay1
  dsimp only
  rw [shapeCast_self]
  rw [show matmul dot_S400x10000_S10000x32_S400x32_1_0_0_1_n_n none v0 v1 (constant (F := Ideal) S400x32 .f32 0x00000000#32)
      = mm (φ₁ := .f32) (φ₂ := .f32) v0 v1 from matmul_plain_zero_eq none v0 v1]
  funext i
  obtain ⟨p, q, rfl⟩ : ∃ (p : Fin 400) (q : Fin 16), i = ix2 p q := ⟨i 0, i 1, eq_ix2 i⟩
  -- the slice at column offset 0 reads column q, the slice at column offset 16 reads column 16 + q
  have e0 : extractStridedSlice S400x16 ![0, 0] (mm (φ₁ := .f32) (φ₂ := .f32) v0 v1) slices_S400x32_o0_0_S400x16 (ix2 p q)
      = mm (φ₁ := .f32) (φ₂ := .f32) v0 v1 (ix2 p ⟨q.val, Nat.lt_of_lt_of_le q.isLt (by decide)⟩) :=
    extractStridedSlice_apply _ _ _ _ _ (fun a => by
      match a with
      | ⟨0, _⟩ => exact (Nat.zero_add _).symm
      | ⟨1, _⟩ => exact (Nat.zero_add _).symm)
  have e1 : extractStridedSlice S400x16 ![0, 16] (mm (φ₁ := .f32) (φ₂ := .f32) v0 v1) slices_S400x32_o0_16_S400x16 (ix2 p q)
      = mm (φ₁ := .f32) (φ₂ := .f32) v0 v1 (ix2 p ⟨16 + q.val, Nat.add_lt_add_left q.isLt 16⟩) :=
    extractStridedSlice_apply _ _ _ _ _ (fun a => by
      match a with
      | ⟨0, _⟩ => exact (Nat.zero_add _).symm
      | ⟨1, _⟩ => rfl)
  rw [sample_apply, ← e0, ← e1]
  rfl

/-! ### The product of rows with rows -/

/-- On its first axis the left operand's index is the result's row. -/
theorem lhsT_0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide),
    dif_pos (show (0 : Fin S400x16.rank) ∈ dot_S400x16_S10000x16_S400x10000_1_1_0_0_n_n.lhsNonContracting by decide)]
  rfl

/-- On its first axis the right operand's index is the result's column: the right operand is read by rows. -/
theorem rhsT_0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide),
    dif_pos (show (0 : Fin S10000x16.rank) ∈ dot_S400x16_S10000x16_S400x10000_1_1_0_0_n_n.rhsNonContracting by decide)]
  rfl

/-- The product contracting the second axis of both operands, into the zero accumulator, read at (p, b): the sum over
    the contracted coordinate k of A(p, k) · B(b, k). -/
theorem matmul_rows_zero_apply (A : Mat 400 16) (B : Mat 10000 16) (p : Fin 400) (b : Fin 10000) :
    matmul dot_S400x16_S10000x16_S400x10000_1_1_0_0_n_n none A B (constant (F := Ideal) S400x10000 .f32 0x00000000#32) (ix2 p b)
      = ∑ k : Fin 16, A (ix2 p k) * B (ix2 b k) := by
  show FloatOps.matmul _ none A B _ (ix2 p b) = _
  rw [Ideal.matmul_constant_zero_apply,
    ← Equiv.sum_comp (contrEquiv1 dot_S400x16_S10000x16_S400x10000_1_1_0_0_n_n 16 rfl rfl).symm]
  refine Finset.sum_congr rfl fun k _ => ?_
  have hk := contrEquiv1_symm_val dot_S400x16_S10000x16_S400x10000_1_1_0_0_n_n 16 rfl rfl k
  have el : dot_S400x16_S10000x16_S400x10000_1_1_0_0_n_n.lhsIdx (ix2 p b)
      ((contrEquiv1 dot_S400x16_S10000x16_S400x10000_1_1_0_0_n_n 16 rfl rfl).symm k) = ix2 p k :=
    funext fun a => Fin.ext (by
      match a with
      | ⟨0, _⟩ => exact lhsT_0 _ _
      | ⟨1, _⟩ => exact (dot_S400x16_S10000x16_S400x10000_1_1_0_0_n_n.lhsIdx_val_of_single rfl _ _).trans hk)
  have er : dot_S400x16_S10000x16_S400x10000_1_1_0_0_n_n.rhsIdx (ix2 p b)
      ((contrEquiv1 dot_S400x16_S10000x16_S400x10000_1_1_0_0_n_n 16 rfl rfl).symm k) = ix2 b k :=
    funext fun a => Fin.ext (by
      match a with
      | ⟨0, _⟩ => exact rhsT_0 _ _
      | ⟨1, _⟩ => exact (dot_S400x16_S10000x16_S400x10000_1_1_0_0_n_n.rhsIdx_val_of_single rfl _ _).trans hk)
  rw [el, er]

/-- The fourth body stores the products of the rows of its first block with the rows of its second. -/
theorem pay3_eq (v0 : Vec Ideal S400x16 .f32) (v2 : Vec Ideal S10000x16 .f32) : k3_pay1 (F := Ideal) v0 v2 = outer v0 v2 := by
  unfold k3_pay1
  rw [shapeCast_self, shapeCast_self]
  funext i
  obtain ⟨p, b, rfl⟩ : ∃ (p : Fin 400) (b : Fin 10000), i = ix2 p b := ⟨i 0, i 1, eq_ix2 i⟩
  rw [outer_apply]
  exact matmul_rows_zero_apply v0 v2 p b

end Cert.KernelIdeal.Pay

end
-- ==== Proof.KernelIdealFinal0.lean ====
/-
  From the one block to the array, first region: after its one point the output array is the dense product of the
  feature matrix and the first weight matrix as the region found them.

  The region has one point, and each of its three windows is its whole array there: the block index is 0 on both axes, so an
  index of a block sits at itself in the array. The point's body stores the dense product of the two operand blocks, which are
  the two arrays; the one block written back covers the output array.
-/
import proofs.«104989_g64579128262698_cont_9to1_m_970_2_alg».proof.Proof.KernelIdealBody0
import proofs.«104989_g64579128262698_cont_9to1_m_970_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec Cert.LibDenseProduct

variable (V : (c : Dev nD) → (b : Ref sig .tc) → Buf (Elt Ideal) ((c : Thread nD τ).loc b))

/-- The two zero offsets, as a constant function. -/
theorem zero_offsets0 : (![0, 0] : Fin 2 → Nat) = fun _ => 0 := funext fun a => by fin_cases a <;> rfl

/-- The region has one point, and there every window's block index is 0 on both axes: each block is its whole array. -/
theorem index_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The feature matrix's block is the feature matrix. -/
theorem block_read0_0 (c : Dev nD) (t : Fin cfg0.N) (y : S10000x128.Idx) :
    (iblk0 V c 0 t : S10000x128.Idx → Elt Ideal .f32) y = (V c main_arg0 : S10000x128.Idx → Elt Ideal .f32) y := by
  unfold iblk0
  show V c main_arg0 (((cfg0.win 0).blk t).view.emb y) = V c main_arg0 y
  refine congrArg (V c main_arg0) (funext fun a => Fin.ext ?_)
  obtain ⟨e0, e1, -⟩ := index_facts0 t
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weight matrix's block is the weight matrix. -/
theorem block_read0_1 (c : Dev nD) (t : Fin cfg0.N) (y : S128x32.Idx) :
    (iblk0 V c 1 t : S128x32.Idx → Elt Ideal .f32) y = (V c main_arg2 : S128x32.Idx → Elt Ideal .f32) y := by
  unfold iblk0
  show V c main_arg2 (((cfg0.win 1).blk t).view.emb y) = V c main_arg2 y
  refine congrArg (V c main_arg2) (funext fun a => Fin.ext ?_)
  obtain ⟨-, -, e0, e1, -⟩ := index_facts0 t
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

/-- An index of the output's block sits at itself in the output array. -/
theorem block_emb0_2 (t : Fin cfg0.N) (y : S10000x32.Idx) : ((cfg0.win 2).blk t).view.emb y = y := by
  refine funext fun a => Fin.ext ?_
  obtain ⟨-, -, -, -, e0, e1⟩ := index_facts0 t
  match a with
  | ⟨0, _⟩ => show win0_2.index t (0 : Fin 2) * 10000 + 1 * (y 0).val = (y 0).val; rw [e0]; omega
  | ⟨1, _⟩ => show win0_2.index t (1 : Fin 2) * 32 + 1 * (y 1).val = (y 1).val; rw [e1]; omega

/-- What the point writes back is its block of the dense product of the two arrays. -/
theorem rows_eq0 (c : Dev nD) (t : Fin cfg0.N) :
    (dat0 (F := Ideal) V c).flushed 2 t = ((cfg0.win 2).blk t).view.read (Elt Ideal)
      (mm (φ₁ := .f32) (φ₂ := .f32) (V c main_arg0 : Mat 10000 128) (V c main_arg2 : Mat 128 32)) := by
  show (cfg0.win 2).cut (grid0.coords t) ((dat0 (F := Ideal) V c).after 2 t) = _
  rw [after0_2]
  unfold out0_2
  rw [View.canon_unit_zero zero_offsets0]
  simp only [View.ld_unit_zero (S := S10000x128) zero_offsets0, View.ld_unit_zero (S := S128x32) zero_offsets0]
  rw [Cert.KernelIdeal.Pay.pay0_eq]
  refine funext fun (j : S10000x32.Idx) => ?_
  obtain ⟨p, q, rfl⟩ : ∃ (p : Fin 10000) (q : Fin 32), j = ix2 p q := ⟨j 0, j 1, eq_ix2 j⟩
  show mm (φ₁ := .f32) (φ₂ := .f32) (iblk0 V c 0 t : Mat 10000 128) (iblk0 V c 1 t : Mat 128 32) (ix2 p q)
    = mm (φ₁ := .f32) (φ₂ := .f32) (V c main_arg0 : Mat 10000 128) (V c main_arg2 : Mat 128 32) (((cfg0.win 2).blk t).view.emb (ix2 p q))
  rw [block_emb0_2 t (ix2 p q), mm_apply, mm_apply]
  refine Finset.sum_congr rfl fun k _ => ?_
  exact congrArg₂ (· * ·) (block_read0_0 V c t (ix2 p k)) (block_read0_1 V c t (ix2 k q))

/-- An index of the output array is in point t's block iff each coordinate is in the block's range on its axis. -/
theorem mem_block0 (t : Fin cfg0.N) (i : S10000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v1).slice (win0_2.rect t)).set ↔ _
  rw [View.set_slice_whole, Rect.mem_set_unit]
  exact Iff.rfl

/-- The one point's block is the whole output array. -/
theorem cover0 (i : S10000x32.Idx) :
    ∃ t : Fin cfg0.N, (cfg0.win 2).flush t = true ∧ i ∈ ((cfg0.win 2).blk t).view.set := by
  refine ⟨t0_0, flush0_2 t0_0, ?_⟩
  rw [mem_block0]
  obtain ⟨-, -, -, -, e0, e1⟩ := index_facts0 t0_0
  have h0 : (i 0).val < 10000 := (i 0).isLt
  have h1 : (i 1).val < 32 := (i 1).isLt
  intro a
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 32 ≤ (i 1).val ∧ (i 1).val < win0_2.index t0_0 (1 : Fin 2) * 32 + 32; rw [e1]; omega

/-- The region's output array after its one point: the dense product of the two arrays the region found at entry. -/
theorem final0 (c : Dev nD) :
    (dat0 (F := Ideal) V c).arrAt 2 cfg0.N
      = mm (φ₁ := .f32) (φ₂ := .f32) (V c main_arg0 : Mat 10000 128) (V c main_arg2 : Mat 128 32) :=
  (dat0 (F := Ideal) V c).arrAt_eq_of_cover 2
    (mm (φ₁ := .f32) (φ₂ := .f32) (V c main_arg0 : Mat 10000 128) (V c main_arg2 : Mat 128 32))
    (fun t _ => rows_eq0 V c t) cover0

end Cert.KernelIdeal.Hand

end
-- ==== Proof.KernelIdealFinal1.lean ====
/-
  From blocks to the array, second kernel region: the 10000×32 output array after all 25 points.

  Point t writes rows 400·t … 400·t + 399 of the output, computed from rows 400·t … 400·t + 399 of the adjacency matrix and
  from the whole first-layer product and the whole 32-column weight matrix. A row of
  mm (relu (mm adj xw)) Wcat reads that row of adj only, so what point t writes is rows 400·t … of that one function of the
  three whole arrays; and every row r of the output lies in the block of the point r / 400. Hence the output array ends
  holding mm (relu (mm adj xw)) Wcat of the arrays the region found.
-/
import proofs.«104989_g64579128262698_cont_9to1_m_970_2_alg».proof.Proof.KernelIdealBody1
import proofs.«104989_g64579128262698_cont_9to1_m_970_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec Cert.LibDenseProduct

variable (V : (c : Dev nD) → (b : Ref sig .tc) → Buf (Elt Ideal) ((c : Thread nD τ).loc b))

/-- The whole-buffer rectangles sit at offsets zero. -/
theorem zero_offsets1 : (![0, 0] : Fin 2 → Nat) = fun _ => 0 := funext fun a => by fin_cases a <;> rfl

/-- The block index of each window at point t: the adjacency rows and the output rows move with t, the two whole-array
    operands stay at block (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the output array ends holding: the hidden stage of the three whole arrays. -/
abbrev hidden1 (c : Dev nD) : Mat 10000 32 :=
  mm (φ₂ := .f32) (relu (mm (φ₁ := .f32) (φ₂ := .f32) (V c main_arg1 : Mat 10000 10000) (V c main_v1 : Mat 10000 32))) (V c main_v0 : Mat 32 32)

/-- One point, over plain matrices: if the 400-row block a0 holds rows 400·t … of adj, and the other two operands are the
    whole arrays, then entry j of the block's hidden stage is entry i of the whole hidden stage, for i the row 400·t + (row of j)
    and the same column. -/
theorem hidden_block (adj : Mat 10000 10000) (xw : Mat 10000 32) (Wcat : Mat 32 32)
    (a0 : Mat 400 10000) (x1 : Mat 10000 32) (x2 : Mat 32 32) (t : Nat)
    (h0 : ∀ (y : S400x10000.Idx) (k : S10000x10000.Idx), (k 0).val = 400 * t + (y 0).val → (k 1).val = (y 1).val → a0 y = adj k)
    (h1 : x1 = xw) (h2 : x2 = Wcat)
    (j : S400x32.Idx) (i : S10000x32.Idx) (hi0 : (i 0).val = 400 * t + (j 0).val) (hi1 : (i 1).val = (j 1).val) :
    mm (φ₂ := .f32) (relu (mm (φ₁ := .f32) (φ₂ := .f32) a0 x1)) x2 j
      = mm (φ₂ := .f32) (relu (mm (φ₁ := .f32) (φ₂ := .f32) adj xw)) Wcat i := by
  subst h1; subst h2
  obtain ⟨p, q, rfl⟩ : ∃ (p : Fin 400) (q : Fin 32), j = ix2 p q := ⟨j 0, j 1, eq_ix2 j⟩
  obtain ⟨P, Q, rfl⟩ : ∃ (P : Fin 10000) (Q : Fin 32), i = ix2 P Q := ⟨i 0, i 1, eq_ix2 i⟩
  obtain rfl : Q = q := Fin.ext hi1
  exact Cert.KernelIdeal.Pay.hidden_rows adj x1 x2 a0 p P (fun k => h0 (ix2 p k) (ix2 P k) hi0 rfl) Q

/-- The adjacency block of point t is rows 400·t … 400·t + 399 of the adjacency matrix. -/
theorem adj_rows1 (c : Dev nD) (t : Fin cfg1.N) (y : S400x10000.Idx) (k : S10000x10000.Idx)
    (hk0 : (k 0).val = 400 * t.val + (y 0).val) (hk1 : (k 1).val = (y 1).val) :
    (iblk1 V c 0 t : Vec Ideal S400x10000 .f32) y = (V c main_arg1 : Mat 10000 10000) k := by
  obtain ⟨e0, e1, -⟩ := block_index1 t
  unfold iblk1
  show (V c main_arg1 : S10000x10000.Idx → Elt Ideal .f32) (((cfg1.win 0).blk t).view.emb y) = (V c main_arg1 : S10000x10000.Idx → Elt Ideal .f32) k
  refine congrArg (V c main_arg1 : S10000x10000.Idx → Elt Ideal .f32) (funext fun a => Fin.ext ?_)
  match a with
  | ⟨0, _⟩ => show win1_0.index t (0 : Fin 2) * 400 + 1 * (y 0).val = (k 0).val; rw [e0, hk0]; omega
  | ⟨1, _⟩ => show win1_0.index t (1 : Fin 2) * 10000 + 1 * (y 1).val = (k 1).val; rw [e1, hk1]; omega

/-- The first-layer product's block at every point is the whole array. -/
theorem whole1_1 (c : Dev nD) (t : Fin cfg1.N) : (iblk1 V c 1 t : Vec Ideal S10000x32 .f32) = (V c main_v1 : Mat 10000 32) := by
  obtain ⟨-, -, e0, e1, -⟩ := block_index1 t
  funext y
  unfold iblk1
  show (V c main_v1 : S10000x32.Idx → Elt Ideal .f32) (((cfg1.win 1).blk t).view.emb y) = (V c main_v1 : S10000x32.Idx → Elt Ideal .f32) y
  refine congrArg (V c main_v1 : S10000x32.Idx → Elt Ideal .f32) (funext fun a => Fin.ext ?_)
  match a with
  | ⟨0, _⟩ => show win1_1.index t (0 : Fin 2) * 10000 + 1 * (y 0).val = (y 0).val; rw [e0]; omega
  | ⟨1, _⟩ => show win1_1.index t (1 : Fin 2) * 32 + 1 * (y 1).val = (y 1).val; rw [e1]; omega

/-- The weight matrix's block at every point is the whole array. -/
theorem whole1_2 (c : Dev nD) (t : Fin cfg1.N) : (iblk1 V c 2 t : Vec Ideal S32x32 .f32) = (V c main_v0 : Mat 32 32) := by
  obtain ⟨-, -, -, -, e0, e1, -⟩ := block_index1 t
  funext y
  unfold iblk1
  show (V c main_v0 : S32x32.Idx → Elt Ideal .f32) (((cfg1.win 2).blk t).view.emb y) = (V c main_v0 : S32x32.Idx → Elt Ideal .f32) y
  refine congrArg (V c main_v0 : S32x32.Idx → Elt Ideal .f32) (funext fun a => Fin.ext ?_)
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega

/-- What point t writes back is rows 400·t … 400·t + 399 of the hidden stage of the whole arrays. -/
theorem rows_eq1 (c : Dev nD) (t : Fin cfg1.N) :
    (dat1 (F := Ideal) V c).flushed 3 t = ((cfg1.win 3).blk t).view.read (Elt Ideal) (hidden1 V c) := by
  show (cfg1.win 3).cut (grid1.coords t) ((dat1 V c).after 3 t) = _
  rw [after1_3]
  unfold out1_3
  rw [View.canon_unit_zero zero_offsets1]
  simp only [View.ld_unit_zero (S := S400x10000) zero_offsets1, View.ld_unit_zero (S := S10000x32) zero_offsets1,
    View.ld_unit_zero (S := S32x32) zero_offsets1]
  rw [Cert.KernelIdeal.Pay.pay1_eq]
  obtain ⟨-, -, -, -, -, -, e0, e1⟩ := block_index1 t
  funext j
  show mm (φ₂ := .f32) (relu (mm (φ₁ := .f32) (φ₂ := .f32) (iblk1 V c 0 t) (iblk1 V c 1 t))) (iblk1 V c 2 t) j
    = hidden1 V c (((cfg1.win 3).blk t).view.emb j)
  refine hidden_block _ _ _ (iblk1 V c 0 t) (iblk1 V c 1 t) (iblk1 V c 2 t) t.val
    (fun y k h0 h1 => adj_rows1 V c t y k h0 h1) (whole1_1 V c t) (whole1_2 V c t) j _ ?_ ?_
  · show win1_3.index t (0 : Fin 2) * 400 + 1 * (j 0).val = 400 * t.val + (j 0).val
    rw [e0]; omega
  · show win1_3.index t (1 : Fin 2) * 32 + 1 * (j 1).val = (j 1).val
    rw [e1]; omega

/-- An index of the output array is in point t's block iff each coordinate is in the block's range on its axis. -/
theorem mem_rows1 (t : Fin cfg1.N) (i : S10000x32.Idx) :
    i ∈ ((cfg1.win 3).blk t).view.set ↔ ∀ a : Fin 2, win1_3.index t a * S400x32.size a ≤ (i a).val
      ∧ (i a).val < win1_3.index t a * S400x32.size a + S400x32.size a := by
  show i ∈ ((View.whole main_v2).slice (win1_3.rect t)).set ↔ _
  rw [View.set_slice_whole, Rect.mem_set_unit]
  exact Iff.rfl

/-- Row r of the output lies in the block of the point r / 400, which writes back. -/
theorem cover1 (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, e0, e1⟩ := block_index1 t
  refine ⟨t, flush1_3 t, ?_⟩
  rw [mem_rows1]
  intro a
  match a with
  | ⟨0, _⟩ =>
    show win1_3.index t (0 : Fin 2) * 400 ≤ (i 0).val ∧ (i 0).val < win1_3.index t (0 : Fin 2) * 400 + 400
    rw [e0, ht]; omega
  | ⟨1, _⟩ =>
    show win1_3.index t (1 : Fin 2) * 32 ≤ (i 1).val ∧ (i 1).val < win1_3.index t (1 : Fin 2) * 32 + 32
    rw [e1]; omega

/-- The output array after all the points: the hidden stage of the adjacency matrix, the first-layer product and the weights
    as the region found them. -/
theorem final1 (c : Dev nD) : (dat1 (F := Ideal) V c).arrAt 3 cfg1.N
    = mm (φ₂ := .f32) (relu (mm (φ₁ := .f32) (φ₂ := .f32) (V c main_arg1 : Mat 10000 10000) (V c main_v1 : Mat 10000 32))) (V c main_v0 : Mat 32 32) :=
  (dat1 (F := Ideal) V c).arrAt_eq_of_cover 3 (hidden1 V c) (fun t _ => rows_eq1 V c t) cover1

end Cert.KernelIdeal.Hand

end
-- ==== Proof.KernelIdealFinal2.lean ====
/-
  From blocks to the array, third kernel region: the 10000×16 output array after all 25 points.

  Point t writes rows 400·t … 400·t + 399 of the output, computed from rows 400·t … 400·t + 399 of the adjacency matrix and
  of the noise, and from the whole 32-column second-layer operand. Row a of sample (mm adj hw) noise reads row a of adj and
  row a of the noise only, so what point t writes is rows 400·t … of that one function of the three whole arrays; and every
  row r of the output lies in the block of the point r / 400. Hence the output array ends holding sample (mm adj hw) noise of
  the arrays the region found.
-/
import proofs.«104989_g64579128262698_cont_9to1_m_970_2_alg».proof.Proof.KernelIdealBody2
import proofs.«104989_g64579128262698_cont_9to1_m_970_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec Cert.LibDenseProduct

variable (V : (c : Dev nD) → (b : Ref sig .tc) → Buf (Elt Ideal) ((c : Thread nD τ).loc b))

/-- The whole-buffer rectangles sit at offsets zero. -/
theorem zero_offsets2 : (![0, 0] : Fin 2 → Nat) = fun _ => 0 := funext fun a => by fin_cases a <;> rfl

/-- The block index of each window at point t: the adjacency rows, the noise rows and the output rows move with t, the
    whole-array operand stays at block (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What the output array ends holding: the latent sample of the three whole arrays. -/
abbrev latent2 (c : Dev nD) : Mat 10000 16 :=
  sample (mm (φ₁ := .f32) (φ₂ := .f32) (V c main_arg1 : Mat 10000 10000) (V c main_v2 : Mat 10000 32)) (V c main_arg5 : Mat 10000 16)

/-- One point, over plain matrices: if the 400-row blocks a0 and n0 hold rows 400·t … of adj and of the noise, and the
    32-column operand is the whole array, then entry j of the block's sample is entry i of the whole sample, for i the row
    400·t + (row of j) and the same column. -/
theorem sample_block (adj : Mat 10000 10000) (hw : Mat 10000 32) (noise : Mat 10000 16)
    (a0 : Mat 400 10000) (x1 : Mat 10000 32) (n0 : Mat 400 16) (t : Nat)
    (h0 : ∀ (y : S400x10000.Idx) (k : S10000x10000.Idx), (k 0).val = 400 * t + (y 0).val → (k 1).val = (y 1).val → a0 y = adj k)
    (h1 : x1 = hw)
    (h2 : ∀ (y : S400x16.Idx) (k : S10000x16.Idx), (k 0).val = 400 * t + (y 0).val → (k 1).val = (y 1).val → n0 y = noise k)
    (j : S400x16.Idx) (i : S10000x16.Idx) (hi0 : (i 0).val = 400 * t + (j 0).val) (hi1 : (i 1).val = (j 1).val) :
    sample (mm (φ₁ := .f32) (φ₂ := .f32) a0 x1) n0 j = sample (mm (φ₁ := .f32) (φ₂ := .f32) adj hw) noise i := by
  subst h1
  obtain ⟨p, q, rfl⟩ : ∃ (p : Fin 400) (q : Fin 16), j = ix2 p q := ⟨j 0, j 1, eq_ix2 j⟩
  obtain ⟨P, Q, rfl⟩ : ∃ (P : Fin 10000) (Q : Fin 16), i = ix2 P Q := ⟨i 0, i 1, eq_ix2 i⟩
  obtain rfl : Q = q := Fin.ext hi1
  exact Cert.KernelIdeal.Pay.sample_rows adj x1 noise a0 n0 p P (fun k => h0 (ix2 p k) (ix2 P k) hi0 rfl)
    (fun k => h2 (ix2 p k) (ix2 P k) hi0 rfl) Q

/-- The adjacency block of point t is rows 400·t … 400·t + 399 of the adjacency matrix. -/
theorem adj_rows2 (c : Dev nD) (t : Fin cfg2.N) (y : S400x10000.Idx) (k : S10000x10000.Idx)
    (hk0 : (k 0).val = 400 * t.val + (y 0).val) (hk1 : (k 1).val = (y 1).val) :
    (iblk2 V c 0 t : Vec Ideal S400x10000 .f32) y = (V c main_arg1 : Mat 10000 10000) k := by
  obtain ⟨e0, e1, -⟩ := block_index2 t
  unfold iblk2
  show (V c main_arg1 : S10000x10000.Idx → Elt Ideal .f32) (((cfg2.win 0).blk t).view.emb y) = (V c main_arg1 : S10000x10000.Idx → Elt Ideal .f32) k
  refine congrArg (V c main_arg1 : S10000x10000.Idx → Elt Ideal .f32) (funext fun a => Fin.ext ?_)
  match a with
  | ⟨0, _⟩ => show win2_0.index t (0 : Fin 2) * 400 + 1 * (y 0).val = (k 0).val; rw [e0, hk0]; omega
  | ⟨1, _⟩ => show win2_0.index t (1 : Fin 2) * 10000 + 1 * (y 1).val = (k 1).val; rw [e1, hk1]; omega

/-- The second-layer operand's block at every point is the whole array. -/
theorem whole2_1 (c : Dev nD) (t : Fin cfg2.N) : (iblk2 V c 1 t : Vec Ideal S10000x32 .f32) = (V c main_v2 : Mat 10000 32) := by
  obtain ⟨-, -, e0, e1, -⟩ := block_index2 t
  funext y
  unfold iblk2
  show (V c main_v2 : S10000x32.Idx → Elt Ideal .f32) (((cfg2.win 1).blk t).view.emb y) = (V c main_v2 : S10000x32.Idx → Elt Ideal .f32) y
  refine congrArg (V c main_v2 : S10000x32.Idx → Elt Ideal .f32) (funext fun a => Fin.ext ?_)
  match a with
  | ⟨0, _⟩ => show win2_1.index t (0 : Fin 2) * 10000 + 1 * (y 0).val = (y 0).val; rw [e0]; omega
  | ⟨1, _⟩ => show win2_1.index t (1 : Fin 2) * 32 + 1 * (y 1).val = (y 1).val; rw [e1]; omega

/-- The noise block of point t is rows 400·t … 400·t + 399 of the noise. -/
theorem noise_rows2 (c : Dev nD) (t : Fin cfg2.N) (y : S400x16.Idx) (k : S10000x16.Idx)
    (hk0 : (k 0).val = 400 * t.val + (y 0).val) (hk1 : (k 1).val = (y 1).val) :
    (iblk2 V c 2 t : Vec Ideal S400x16 .f32) y = (V c main_arg5 : Mat 10000 16) k := by
  obtain ⟨-, -, -, -, e0, e1, -⟩ := block_index2 t
  unfold iblk2
  show (V c main_arg5 : S10000x16.Idx → Elt Ideal .f32) (((cfg2.win 2).blk t).view.emb y) = (V c main_arg5 : S10000x16.Idx → Elt Ideal .f32) k
  refine congrArg (V c main_arg5 : S10000x16.Idx → Elt Ideal .f32) (funext fun a => Fin.ext ?_)
  match a with
  | ⟨0, _⟩ => show win2_2.index t (0 : Fin 2) * 400 + 1 * (y 0).val = (k 0).val; rw [e0, hk0]; omega
  | ⟨1, _⟩ => show win2_2.index t (1 : Fin 2) * 16 + 1 * (y 1).val = (k 1).val; rw [e1, hk1]; omega

/-- What point t writes back is rows 400·t … 400·t + 399 of the latent sample of the whole arrays. -/
theorem rows_eq2 (c : Dev nD) (t : Fin cfg2.N) :
    (dat2 (F := Ideal) V c).flushed 3 t = ((cfg2.win 3).blk t).view.read (Elt Ideal) (latent2 V c) := by
  show (cfg2.win 3).cut (grid2.coords t) ((dat2 V c).after 3 t) = _
  rw [after2_3]
  unfold out2_3
  rw [View.canon_unit_zero zero_offsets2]
  simp only [View.ld_unit_zero (S := S400x10000) zero_offsets2, View.ld_unit_zero (S := S10000x32) zero_offsets2,
    View.ld_unit_zero (S := S400x16) zero_offsets2]
  rw [Cert.KernelIdeal.Pay.pay2_eq]
  obtain ⟨-, -, -, -, -, -, e0, e1⟩ := block_index2 t
  funext j
  show sample (mm (φ₁ := .f32) (φ₂ := .f32) (iblk2 V c 0 t) (iblk2 V c 1 t)) (iblk2 V c 2 t) j
    = latent2 V c (((cfg2.win 3).blk t).view.emb j)
  refine sample_block _ _ _ (iblk2 V c 0 t) (iblk2 V c 1 t) (iblk2 V c 2 t) t.val
    (fun y k h0 h1 => adj_rows2 V c t y k h0 h1) (whole2_1 V c t) (fun y k h0 h1 => noise_rows2 V c t y k h0 h1) j _ ?_ ?_
  · show win2_3.index t (0 : Fin 2) * 400 + 1 * (j 0).val = 400 * t.val + (j 0).val
    rw [e0]; omega
  · show win2_3.index t (1 : Fin 2) * 16 + 1 * (j 1).val = (j 1).val
    rw [e1]; omega

/-- An index of the output array is in point t's block iff each coordinate is in the block's range on its axis. -/
theorem mem_rows2 (t : Fin cfg2.N) (i : S10000x16.Idx) :
    i ∈ ((cfg2.win 3).blk t).view.set ↔ ∀ a : Fin 2, win2_3.index t a * S400x16.size a ≤ (i a).val
      ∧ (i a).val < win2_3.index t a * S400x16.size a + S400x16.size a := by
  show i ∈ ((View.whole main_v3).slice (win2_3.rect t)).set ↔ _
  rw [View.set_slice_whole, Rect.mem_set_unit]
  exact Iff.rfl

/-- Row r of the output lies in the block of the point r / 400, which writes back. -/
theorem cover2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, e0, e1⟩ := block_index2 t
  refine ⟨t, flush2_3 t, ?_⟩
  rw [mem_rows2]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 16 ≤ (i 1).val ∧ (i 1).val < win2_3.index t (1 : Fin 2) * 16 + 16
    rw [e1]; omega

/-- The output array after all the points: the latent sample of the adjacency matrix, the second-layer operand and the noise
    as the region found them. -/
theorem final2 (c : Dev nD) : (dat2 (F := Ideal) V c).arrAt 3 cfg2.N
    = sample (mm (φ₁ := .f32) (φ₂ := .f32) (V c main_arg1 : Mat 10000 10000) (V c main_v2 : Mat 10000 32)) (V c main_arg5 : Mat 10000 16) :=
  (dat2 (F := Ideal) V c).arrAt_eq_of_cover 3 (latent2 V c) (fun t _ => rows_eq2 V c t) cover2

end Cert.KernelIdeal.Hand

end
-- ==== Proof.KernelIdealFinal3.lean ====
/-
  From blocks to the array, fourth region: after its 25 points the output array is the Gram matrix of the rows of the
  latent matrix as the region found it.

  Point t takes, for its first operand, rows 400·t … 400·t + 399 of the latent matrix and, for its second, the whole latent matrix
  (both windows read the one array), and its body stores the products of the rows of the first block with the rows of the second:
  entry (p, b) is ∑ k, z(400·t + p, k) · z(b, k), which is entry (400·t + p, b) of the Gram matrix. The block written back is
  rows 400·t … 400·t + 399 of the output array, so row r is written by the point r / 400, and the 25 blocks cover the array.
-/
import proofs.«104989_g64579128262698_cont_9to1_m_970_2_alg».proof.Proof.KernelIdealBody3
import proofs.«104989_g64579128262698_cont_9to1_m_970_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec Cert.LibDenseProduct

variable (V : (c : Dev nD) → (b : Ref sig .tc) → Buf (Elt Ideal) ((c : Thread nD τ).loc b))

/-- The two zero offsets, as a constant function. -/
theorem zero_offsets3 : (![0, 0] : Fin 2 → Nat) = fun _ => 0 := funext fun a => by fin_cases a <;> rfl

/-- The block indices over the 25 points: point t takes block t of rows of the latent matrix for its first operand and of the
    output, and block 0, the whole latent matrix, for its second operand; every block starts at column 0. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the first operand's block at point t is row 400·t + p of the latent matrix. -/
theorem block_read3_0 (c : Dev nD) (t : Fin cfg3.N) (p : Fin 400) (k : Fin 16) (P : Fin 10000)
    (hP : P.val = 400 * t.val + p.val) :
    (iblk3 V c 0 t : S400x16.Idx → Elt Ideal .f32) (ix2 p k) = (V c main_v3 : S10000x16.Idx → Elt Ideal .f32) (ix2 P k) := by
  unfold iblk3
  show V c main_v3 (((cfg3.win 0).blk t).view.emb (ix2 p k)) = V c main_v3 (ix2 P k)
  refine congrArg (V c main_v3) (funext fun a => Fin.ext ?_)
  obtain ⟨e0, e1, -⟩ := index_facts3 t
  match a with
  | ⟨0, _⟩ => show win3_0.index t (0 : Fin 2) * 400 + 1 * p.val = P.val; rw [e0, hP]; omega
  | ⟨1, _⟩ => show win3_0.index t (1 : Fin 2) * 16 + 1 * k.val = k.val; rw [e1]; omega

/-- The second operand's block is the whole latent matrix. -/
theorem block_read3_1 (c : Dev nD) (t : Fin cfg3.N) (b : Fin 10000) (k : Fin 16) :
    (iblk3 V c 1 t : S10000x16.Idx → Elt Ideal .f32) (ix2 b k) = (V c main_v3 : S10000x16.Idx → Elt Ideal .f32) (ix2 b k) := by
  unfold iblk3
  show V c main_v3 (((cfg3.win 1).blk t).view.emb (ix2 b k)) = V c main_v3 (ix2 b k)
  refine congrArg (V c main_v3) (funext fun a => Fin.ext ?_)
  obtain ⟨-, -, e0, e1, -⟩ := index_facts3 t
  match a with
  | ⟨0, _⟩ => show win3_1.index t (0 : Fin 2) * 10000 + 1 * b.val = b.val; rw [e0]; omega
  | ⟨1, _⟩ => show win3_1.index t (1 : Fin 2) * 16 + 1 * k.val = k.val; rw [e1]; omega

/-- Row p of the output's block at point t sits at row 400·t + p of the output array, at the same column. -/
theorem block_emb3_2 (t : Fin cfg3.N) (p : Fin 400) (b : Fin 10000) (P : Fin 10000) (hP : P.val = 400 * t.val + p.val) :
    ((cfg3.win 2).blk t).view.emb (ix2 p b) = ix2 P b := by
  refine funext fun a => Fin.ext ?_
  obtain ⟨-, -, -, -, e0, e1⟩ := index_facts3 t
  match a with
  | ⟨0, _⟩ => show win3_2.index t (0 : Fin 2) * 400 + 1 * p.val = P.val; rw [e0, hP]; omega
  | ⟨1, _⟩ => show win3_2.index t (1 : Fin 2) * 10000 + 1 * b.val = b.val; rw [e1]; omega

/-- What point t writes back is its block of rows of the Gram matrix of the latent matrix's rows. -/
theorem rows_eq3 (c : Dev nD) (t : Fin cfg3.N) :
    (dat3 (F := Ideal) V c).flushed 2 t = ((cfg3.win 2).blk t).view.read (Elt Ideal)
      (outer (V c main_v3 : Mat 10000 16) (V c main_v3 : Mat 10000 16)) := by
  show (cfg3.win 2).cut (grid3.coords t) ((dat3 (F := Ideal) V c).after 2 t) = _
  rw [after3_2]
  unfold out3_2
  rw [View.canon_unit_zero zero_offsets3]
  simp only [View.ld_unit_zero (S := S400x16) zero_offsets3, View.ld_unit_zero (S := S10000x16) zero_offsets3]
  rw [Cert.KernelIdeal.Pay.pay3_eq]
  refine funext fun (j : S400x10000.Idx) => ?_
  obtain ⟨p, b, rfl⟩ : ∃ (p : Fin 400) (b : Fin 10000), j = ix2 p b := ⟨j 0, j 1, eq_ix2 j⟩
  have hN : t.val < 25 := lt_of_lt_of_eq t.isLt N_3
  have hp : 400 * t.val + p.val < 10000 := by have := p.isLt; omega
  show outer (iblk3 V c 0 t : Mat 400 16) (iblk3 V c 1 t : Mat 10000 16) (ix2 p b)
    = outer (V c main_v3 : Mat 10000 16) (V c main_v3 : Mat 10000 16) (((cfg3.win 2).blk t).view.emb (ix2 p b))
  rw [block_emb3_2 t p b ⟨400 * t.val + p.val, hp⟩ rfl, outer_apply, outer_apply]
  refine Finset.sum_congr rfl fun k _ => ?_
  exact congrArg₂ (· * ·) (block_read3_0 V c t p k ⟨400 * t.val + p.val, hp⟩ rfl) (block_read3_1 V c t b k)

/-- An index of the output array is in point t's block iff each coordinate is in the block's range on its axis. -/
theorem mem_block3 (t : Fin cfg3.N) (i : S10000x10000.Idx) :
    i ∈ ((cfg3.win 2).blk t).view.set ↔ ∀ a : Fin 2, win3_2.index t a * S400x10000.size a ≤ (i a).val
      ∧ (i a).val < win3_2.index t a * S400x10000.size a + S400x10000.size a := by
  show i ∈ ((View.whole main_v4).slice (win3_2.rect t)).set ↔ _
  rw [View.set_slice_whole, Rect.mem_set_unit]
  exact Iff.rfl

/-- Row r of the output array is in the block of the point r / 400. -/
theorem cover3 (i : S10000x10000.Idx) :
    ∃ t : Fin cfg3.N, (cfg3.win 2).flush t = true ∧ i ∈ ((cfg3.win 2).blk t).view.set := by
  have h0 : (i 0).val < 10000 := (i 0).isLt
  have h1 : (i 1).val < 10000 := (i 1).isLt
  have hN : cfg3.N = 25 := N_3
  have ht : (i 0).val / 400 < cfg3.N := by rw [hN]; omega
  refine ⟨⟨(i 0).val / 400, ht⟩, flush3_2 _, ?_⟩
  rw [mem_block3]
  obtain ⟨-, -, -, -, e0, e1⟩ := index_facts3 ⟨(i 0).val / 400, ht⟩
  intro a
  match a with
  | ⟨0, _⟩ =>
    show win3_2.index ⟨(i 0).val / 400, ht⟩ (0 : Fin 2) * 400 ≤ (i 0).val
      ∧ (i 0).val < win3_2.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win3_2.index ⟨(i 0).val / 400, ht⟩ (1 : Fin 2) * 10000 ≤ (i 1).val
      ∧ (i 1).val < win3_2.index ⟨(i 0).val / 400, ht⟩ (1 : Fin 2) * 10000 + 10000
    rw [e1]
    omega

/-- The region's output array after its 25 points: the Gram matrix of the rows of the latent matrix the region found at entry. -/
theorem final3 (c : Dev nD) :
    (dat3 (F := Ideal) V c).arrAt 2 cfg3.N = outer (V c main_v3 : Mat 10000 16) (V c main_v3 : Mat 10000 16) :=
  (dat3 (F := Ideal) V c).arrAt_eq_of_cover 2
    (outer (V c main_v3 : Mat 10000 16) (V c main_v3 : Mat 10000 16))
    (fun t _ => rows_eq3 V c t) cover3

end Cert.KernelIdeal.Hand

end
-- ==== Proof.KernelIdealValue.lean ====
/-
  What the idealized kernel program leaves in its result, as one function of its six arguments over the extended reals.

  The host step writes Wcat, the two heads' weights side by side. Region 0 leaves xw = mm x W1; region 1 leaves
  hw = mm (relu (mm adj xw)) Wcat; region 2 leaves z = sample (mm adj hw) noise; region 3 leaves outer z z. Each region finds
  its operands as the steps before it left them — an argument as launched, an intermediate as the region that wrote it left it —
  so the result is the specification's forward pass of the arguments and Wcat.
-/
import proofs.«104989_g64579128262698_cont_9to1_m_970_2_alg».proof.Proof.Gen.KernelIdeal.Launch
import proofs.«104989_g64579128262698_cont_9to1_m_970_2_alg».proof.Proof.Gen.KernelIdeal.Skeleton
import proofs.«104989_g64579128262698_cont_9to1_m_970_2_alg».proof.Proof.Gen.KernelIdeal.Points
import proofs.«104989_g64579128262698_cont_9to1_m_970_2_alg».proof.Proof.KernelIdealRun
import proofs.«104989_g64579128262698_cont_9to1_m_970_2_alg».proof.Proof.KernelIdealFinal0
import proofs.«104989_g64579128262698_cont_9to1_m_970_2_alg».proof.Proof.KernelIdealFinal1
import proofs.«104989_g64579128262698_cont_9to1_m_970_2_alg».proof.Proof.KernelIdealFinal2
import proofs.«104989_g64579128262698_cont_9to1_m_970_2_alg».proof.Proof.KernelIdealFinal3
import Idealize.ShloMosaic.Lib.Pipeline.Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo Cert.Spec Cert.LibDenseProduct

variable (m : (ℓ : Loc nD τ sig) → Buf (Elt Ideal) ℓ)

/-! ## The arguments as each region finds them -/

theorem W1_main_arg0 (c : Dev nD) : W1 m c (Proc.devRef .tc main_arg0) = m ((c : Thread nD τ).loc main_arg0) :=
  calc W1 m c (Proc.devRef .tc main_arg0)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W1_main_arg2 (c : Dev nD) : W1 m c (Proc.devRef .tc main_arg2) = m ((c : Thread nD τ).loc main_arg2) :=
  calc W1 m c (Proc.devRef .tc main_arg2)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg5) := rfl

/-! ## The host step -/

/-- The two heads' weight matrices side by side: columns 0..15 the first, columns 16..31 the second. -/
def wcat (c : Dev nD) : Mat 32 32 :=
  concatenate S32x32 1 [⟨S32x16, m ((c : Thread nD τ).loc main_arg3)⟩, ⟨S32x16, m ((c : Thread nD τ).loc main_arg4)⟩] concatenates_S32x16_S32x16_S32x32_d1

theorem wcat_left (c : Dev nD) (j : Fin 32) (q : Fin 16) :
    wcat m c (ix2 j ⟨q.val, Nat.lt_of_lt_of_le q.isLt (by decide)⟩) = (m ((c : Thread nD τ).loc main_arg3) : Mat 32 16) (ix2 j q) :=
  concatenate_pair_apply_left (t := S32x32) (s₁ := S32x16) (s₂ := S32x16) (1 : Fin 2) _ _ concatenates_S32x16_S32x16_S32x32_d1
    (ix2 j ⟨q.val, Nat.lt_of_lt_of_le q.isLt (by decide)⟩) rfl (ix2 j q)
    (fun b => by match b with | ⟨0, _⟩ => rfl | ⟨1, _⟩ => rfl)

theorem wcat_right (c : Dev nD) (j : Fin 32) (q : Fin 16) :
    wcat m c (ix2 j ⟨16 + q.val, Nat.add_lt_add_left q.isLt 16⟩) = (m ((c : Thread nD τ).loc main_arg4) : Mat 32 16) (ix2 j q) :=
  concatenate_pair_apply_right (t := S32x32) (s₁ := S32x16) (s₂ := S32x16) (1 : Fin 2) _ _ concatenates_S32x16_S32x16_S32x32_d1
    (ix2 j ⟨16 + q.val, Nat.add_lt_add_left q.isLt 16⟩) rfl rfl (ix2 j q)
    (fun b hb => by match b with | ⟨0, _⟩ => rfl | ⟨1, _⟩ => exact absurd rfl hb)
    (Nat.add_comm q.val 16)

/-- The host step leaves the side-by-side weights in its buffer. -/
theorem W1_main_v0 (c : Dev nD) : (V1 m c main_v0 : Mat 32 32) = wcat m c := by
  show StableHlo.after hostOps0 (W0 m c) (Proc.devRef .tc main_v0) = _
  unfold wcat
  after_results

/-! ## The regions' results, in order -/

/-- Region 0 leaves the first-layer product. -/
theorem xw_eq (c : Dev nD) : (V2 m c main_v1 : Mat 10000 32)
    = mm (φ₁ := .f32) (φ₂ := .f32) (m ((c : Thread nD τ).loc main_arg0) : Mat 10000 128) (m ((c : Thread nD τ).loc main_arg2) : Mat 128 32) := by
  refine (W2_arr m c 2).trans ((final0 (V1 m) c).trans ?_)
  rw [show V1 m c main_arg0 = m ((c : Thread nD τ).loc main_arg0) from W1_main_arg0 m c,
    show V1 m c main_arg2 = m ((c : Thread nD τ).loc main_arg2) from W1_main_arg2 m c]

/-- Region 1 leaves the hidden layer times the side-by-side weights. -/
theorem hw_eq (c : Dev nD) : (V3 m c main_v2 : Mat 10000 32)
    = mm (φ₂ := .f32) (relu (mm (φ₁ := .f32) (φ₂ := .f32) (m ((c : Thread nD τ).loc main_arg1) : Mat 10000 10000)
        (mm (φ₁ := .f32) (φ₂ := .f32) (m ((c : Thread nD τ).loc main_arg0) : Mat 10000 128) (m ((c : Thread nD τ).loc main_arg2) : Mat 128 32)))) (wcat m c) := by
  refine (W3_arr m c 3).trans ((final1 (V2 m) c).trans ?_)
  rw [show V2 m c main_arg1 = m ((c : Thread nD τ).loc main_arg1) from W2_main_arg1 m c, xw_eq m c,
    show V2 m c main_v0 = V1 m c main_v0 from W2_of_ne m c main_v0 (by decide), W1_main_v0 m c]

/-- Region 2 leaves the latent sample. -/
theorem z_eq (c : Dev nD) : (V4 m c main_v3 : Mat 10000 16)
    = sample (mm (φ₁ := .f32) (φ₂ := .f32) (m ((c : Thread nD τ).loc main_arg1) : Mat 10000 10000)
        (mm (φ₂ := .f32) (relu (mm (φ₁ := .f32) (φ₂ := .f32) (m ((c : Thread nD τ).loc main_arg1) : Mat 10000 10000)
          (mm (φ₁ := .f32) (φ₂ := .f32) (m ((c : Thread nD τ).loc main_arg0) : Mat 10000 128) (m ((c : Thread nD τ).loc main_arg2) : Mat 128 32)))) (wcat m c)))
        (m ((c : Thread nD τ).loc main_arg5) : Mat 10000 16) := by
  refine (W4_arr m c 3).trans ((final2 (V3 m) c).trans ?_)
  rw [show V3 m c main_arg1 = m ((c : Thread nD τ).loc main_arg1) from W3_main_arg1 m c, hw_eq m c,
    show V3 m c main_arg5 = m ((c : Thread nD τ).loc main_arg5) from W3_main_arg5 m c]

/-- The result: region 3 leaves the Gram matrix of the latent sample — the specification's forward pass. -/
theorem kernel_value (c : Dev nD) : (dat3 (F := Ideal) (V4 m) c).arrAt 2 cfg3.N
    = forward (m ((c : Thread nD τ).loc main_arg0)) (m ((c : Thread nD τ).loc main_arg1)) (m ((c : Thread nD τ).loc main_arg2))
        (wcat m c) (m ((c : Thread nD τ).loc main_arg5)) := by
  refine (final3 (V4 m) c).trans ?_
  rw [z_eq m c]
  rfl

end Cert.KernelIdeal.Hand

end
-- ==== Proof.RefBridge.lean ====
/-
  The reference program's result is the forward pass of the specification.

  The reference computes the hidden layer h = relu (adj · (x · W1)), the two heads mu = adj · (h · Wmu) and
  logsig = adj · (h · Wsig), the latent sample z = mu + noise · exp logsig, and the Gram matrix z · zᵀ, the transpose
  taken first and the product a plain one. The specification computes one 32-column product t = adj · (h · Wcat) and
  reads mu in its left 16 columns and logsig in its right 16. When the left 16 columns of Wcat are Wmu and its right
  16 are Wsig, (h · Wcat)(c, q) and (h · Wmu)(c, q) are sums of equal terms, as are (h · Wcat)(c, 16 + q) and
  (h · Wsig)(c, q); so the halves of t are mu and logsig, again term by term. No sum is rearranged.
-/
import proofs.«104989_g64579128262698_cont_9to1_m_970_2_alg».proof.Proof.Spec
import proofs.«104989_g64579128262698_cont_9to1_m_970_2_alg».proof.Proof.Gen.ReferenceIdeal.Read
import Idealize.ShloMosaic.Lib.Pipeline.Value
import Idealize.ShloMosaic.Lib.ValueIdx
import Idealize.ShloMosaic.PureOps.Ideal

noncomputable section

namespace Cert.RefBridge

open Idealize.ShloMosaic Idealize.ShloMosaic.ValueIdx Cert.LibDenseProduct Cert.Spec

/-! ## The two halves of the 32-column product -/

/-- Column q of h · Wcat is column q of h · Wmu when the left 16 columns of Wcat are Wmu. -/
theorem mm_cat_left {n : Nat} (h : Mat n 32) (Wmu : Mat 32 16) (Wcat : Mat 32 32)
    (hl : ∀ (j : Fin 32) (q : Fin 16), Wcat (ix2 j ⟨q.val, Nat.lt_of_lt_of_le q.isLt (by decide)⟩) = Wmu (ix2 j q))
    (c : Fin n) (q : Fin 16) :
    mm h Wcat (ix2 c ⟨q.val, Nat.lt_of_lt_of_le q.isLt (by decide)⟩) = mm h Wmu (ix2 c q) := by
  rw [mm_apply, mm_apply]
  exact Finset.sum_congr rfl fun j _ => by rw [hl j q]

/-- Column 16 + q of h · Wcat is column q of h · Wsig when the right 16 columns of Wcat are Wsig. -/
theorem mm_cat_right {n : Nat} (h : Mat n 32) (Wsig : Mat 32 16) (Wcat : Mat 32 32)
    (hr : ∀ (j : Fin 32) (q : Fin 16), Wcat (ix2 j ⟨16 + q.val, Nat.add_lt_add_left q.isLt 16⟩) = Wsig (ix2 j q))
    (c : Fin n) (q : Fin 16) :
    mm h Wcat (ix2 c ⟨16 + q.val, Nat.add_lt_add_left q.isLt 16⟩) = mm h Wsig (ix2 c q) := by
  rw [mm_apply, mm_apply]
  exact Finset.sum_congr rfl fun j _ => by rw [hr j q]

/-- The same for adj · (h · Wcat): its column q is that of adj · (h · Wmu). -/
theorem mm_mm_cat_left {m n : Nat} (adj : Mat m n) (h : Mat n 32) (Wmu : Mat 32 16) (Wcat : Mat 32 32)
    (hl : ∀ (j : Fin 32) (q : Fin 16), Wcat (ix2 j ⟨q.val, Nat.lt_of_lt_of_le q.isLt (by decide)⟩) = Wmu (ix2 j q))
    (a : Fin m) (q : Fin 16) :
    mm adj (mm h Wcat) (ix2 a ⟨q.val, Nat.lt_of_lt_of_le q.isLt (by decide)⟩) = mm adj (mm h Wmu) (ix2 a q) := by
  rw [mm_apply, mm_apply]
  exact Finset.sum_congr rfl fun c _ => by rw [mm_cat_left h Wmu Wcat hl c q]

/-- And its column 16 + q is column q of adj · (h · Wsig). -/
theorem mm_mm_cat_right {m n : Nat} (adj : Mat m n) (h : Mat n 32) (Wsig : Mat 32 16) (Wcat : Mat 32 32)
    (hr : ∀ (j : Fin 32) (q : Fin 16), Wcat (ix2 j ⟨16 + q.val, Nat.add_lt_add_left q.isLt 16⟩) = Wsig (ix2 j q))
    (a : Fin m) (q : Fin 16) :
    mm adj (mm h Wcat) (ix2 a ⟨16 + q.val, Nat.add_lt_add_left q.isLt 16⟩) = mm adj (mm h Wsig) (ix2 a q) := by
  rw [mm_apply, mm_apply]
  exact Finset.sum_congr rfl fun c _ => by rw [mm_cat_right h Wsig Wcat hr c q]

/-! ## The reference's stages as whole arrays -/

/-- The reference's maximum with the broadcast zero is the specification's relu: both read max (A i) 0 at an index. -/
theorem relu_stage (A : Mat 10000 32) :
    maximumf A (Cert.ReferenceIdeal.Read.val_main_call0_v0 (F := Ideal)) = relu A := by
  funext i
  rw [relu_apply, maximumf_apply, Cert.ReferenceIdeal.Read.val_main_call0_v0_apply,
    Cert.ReferenceIdeal.Read.val_main_call0_cst_apply]
  rfl

/-- The sample stage: mu + noise · exp logsig is the specification's sample of any 32-column array whose left half is mu
    and whose right half is logsig. -/
theorem sample_stage {n : Nat} (mu ls noise : Mat n 16) (t : Mat n 32)
    (hmu : ∀ (a : Fin n) (q : Fin 16), t (ix2 a ⟨q.val, Nat.lt_of_lt_of_le q.isLt (by decide)⟩) = mu (ix2 a q))
    (hls : ∀ (a : Fin n) (q : Fin 16), t (ix2 a ⟨16 + q.val, Nat.add_lt_add_left q.isLt 16⟩) = ls (ix2 a q)) :
    addf mu (mulf noise (Host.exp ls)) = sample t noise := by
  funext i
  obtain ⟨a, q, rfl⟩ : ∃ (a : Fin n) (q : Fin 16), i = ix2 a q := ⟨i 0, i 1, eq_ix2 i⟩
  rw [sample_apply, hmu a q, hls a q]
  rfl

/-- The output stage: the plain product of Z with its transpose is the Gram matrix of the rows of Z. -/
theorem gram_stage (Z : Mat 10000 16) :
    Host.dotGeneral Cert.ReferenceIdeal.dot_S10000x16_S16x10000_S10000x10000_1_0_0_1_n_n none Z
      (transpose Cert.ReferenceIdeal.S16x10000 [1, 0] Z Cert.ReferenceIdeal.Facts₀.transposes_S10000x16_S16x10000_1_0)
      = outer Z Z := by
  refine (dotGeneral_plain_eq none Z _).trans ?_
  funext i
  obtain ⟨a, b, rfl⟩ : ∃ (a b : Fin 10000), i = ix2 a b := ⟨i 0, i 1, eq_ix2 i⟩
  rw [mm_apply, outer_apply]
  refine Finset.sum_congr rfl fun k _ => ?_
  refine congrArg (fun y => Z (ix2 a k) * y) ?_
  exact transpose_apply [1, 0] Z _ (ix2 k b) (ix2 b k) (fun d => match d with
    | ⟨0, _⟩ => rfl
    | ⟨1, _⟩ => rfl)

/-! ## The reference is the forward pass -/

open Cert.ReferenceIdeal.Read in
theorem reference_eq_forward
    (x : Mat 10000 128) (adj : Mat 10000 10000) (W1 : Mat 128 32) (Wmu Wsig : Mat 32 16) (noise : Mat 10000 16) (Wcat : Mat 32 32)
    (hl : ∀ (j : Fin 32) (q : Fin 16), Wcat (ix2 j ⟨q.val, Nat.lt_of_lt_of_le q.isLt (by decide)⟩) = Wmu (ix2 j q))
    (hr : ∀ (j : Fin 32) (q : Fin 16), Wcat (ix2 j ⟨16 + q.val, Nat.add_lt_add_left q.isLt 16⟩) = Wsig (ix2 j q)) :
    Cert.ReferenceIdeal.Read.val_main_v11 (F := Ideal) x adj W1 Wmu Wsig noise = forward x adj W1 Wcat noise := by
  have h0 : val_main_v0 (F := Ideal) x W1 = mm x W1 := dotGeneral_plain_eq none x W1
  have h1 : val_main_v1 (F := Ideal) x adj W1 = mm adj (mm x W1) := by
    unfold val_main_v1
    rw [h0]
    exact dotGeneral_plain_eq none adj _
  have h2 : val_main_v2 (F := Ideal) x adj W1 = relu (mm adj (mm x W1)) := by
    unfold val_main_v2
    rw [h1]
    exact relu_stage _
  have h3 : val_main_v3 (F := Ideal) x adj W1 Wmu = mm (relu (mm adj (mm x W1))) Wmu := by
    unfold val_main_v3
    rw [h2]
    exact dotGeneral_plain_eq none _ Wmu
  have h4 : val_main_v4 (F := Ideal) x adj W1 Wmu = mm adj (mm (relu (mm adj (mm x W1))) Wmu) := by
    unfold val_main_v4
    rw [h3]
    exact dotGeneral_plain_eq none adj _
  have h5 : val_main_v5 (F := Ideal) x adj W1 Wsig = mm (relu (mm adj (mm x W1))) Wsig := by
    unfold val_main_v5
    rw [h2]
    exact dotGeneral_plain_eq none _ Wsig
  have h6 : val_main_v6 (F := Ideal) x adj W1 Wsig = mm adj (mm (relu (mm adj (mm x W1))) Wsig) := by
    unfold val_main_v6
    rw [h5]
    exact dotGeneral_plain_eq none adj _
  have h9 : val_main_v9 (F := Ideal) x adj W1 Wmu Wsig noise
      = sample (mm adj (mm (relu (mm adj (mm x W1))) Wcat)) noise := by
    unfold val_main_v9 val_main_v8 val_main_v7
    rw [h4, h6]
    exact sample_stage _ _ noise _
      (mm_mm_cat_left adj _ Wmu Wcat hl) (mm_mm_cat_right adj _ Wsig Wcat hr)
  unfold val_main_v11 val_main_v10
  rw [h9]
  exact gram_stage _

end Cert.RefBridge

end
-- ==== Proof.lean ====
/-
  The certificate of the graph variational auto-encoder's forward pass: a kernel program of four kernel regions against a plain
  reference.

  Both compute h = relu (adj · (x · W1)), the two heads mu = adj · (h · W_mu) and log_sig = adj · (h · W_sig), the latent sample
  z = mu + noise · exp (log_sig) and the decoder z · zᵀ. The kernel computes the two heads in one pass: a host step sets W_mu and
  W_sig side by side as the columns 0..15 and 16..31 of one 32-column matrix Wcat, region 1 forms h · Wcat, region 2 forms
  t = adj · (h · Wcat) and reads mu and log_sig off t's left and right halves. Column q of h · Wcat is column q of h · W_mu for q < 16
  and column q − 16 of h · W_sig otherwise, term by term, and a column of adj · M is adj times that column of M; so over the extended
  reals the two programs are one function of the arguments, with no use of distributivity and none of the inputs' finiteness.

  The frames: each program runs to the end on every weakly fair execution, faults nowhere and leaves its six arguments as launched.
  For the two kernel programs this is the run of the host step and the four regions in order, every unscoped buffer tracked between
  steps; for the reference it is its run with the result dropped. The idealization rewrote no operation, so nothing is owed for it.
-/
import proofs.«104989_g64579128262698_cont_9to1_m_970_2_alg».proof.Defs
import proofs.«104989_g64579128262698_cont_9to1_m_970_2_alg».proof.Proof.Gen.Kernel
import proofs.«104989_g64579128262698_cont_9to1_m_970_2_alg».proof.Proof.Gen.KernelIdeal
import proofs.«104989_g64579128262698_cont_9to1_m_970_2_alg».proof.Proof.Gen.ReferenceIdeal
import proofs.«104989_g64579128262698_cont_9to1_m_970_2_alg».proof.Proof.Gen.Pre_finite_inputs
import proofs.«104989_g64579128262698_cont_9to1_m_970_2_alg».proof.Proof.Gen.ReferenceIdeal.Run
import proofs.«104989_g64579128262698_cont_9to1_m_970_2_alg».proof.Proof.Gen.ReferenceIdeal.Read
import proofs.«104989_g64579128262698_cont_9to1_m_970_2_alg».proof.Proof.KernelRun
import proofs.«104989_g64579128262698_cont_9to1_m_970_2_alg».proof.Proof.KernelIdealRun
import proofs.«104989_g64579128262698_cont_9to1_m_970_2_alg».proof.Proof.KernelIdealValue
import proofs.«104989_g64579128262698_cont_9to1_m_970_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's forward pass of the arguments
    and of the two heads' weights side by side: the kernel program region by region, the reference operation by operation. -/
theorem algebraic : Cert.algebraic_KernelIdeal_ReferenceIdeal := by
  intro m ρ m' ρ' _ hagree
  refine ⟨fun c => Cert.Spec.forward (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Hand.wcat m c)
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [e0, e1, e2, e3, e4, e5]
    exact (Cert.ReferenceIdeal.Read.val_main_v11_eq _ _ _ _ _ _).trans
      (Cert.RefBridge.reference_eq_forward _ _ _ _ _ _ (Cert.KernelIdeal.Hand.wcat m c)
        (Cert.KernelIdeal.Hand.wcat_left m c) (Cert.KernelIdeal.Hand.wcat_right m c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
